-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v32)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v32) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v54) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x64 : Shape := ⟨2, ![100000, 64]⟩
abbrev S2x1250000 : Shape := ⟨2, ![2, 1250000]⟩
abbrev S64x64 : Shape := ⟨2, ![64, 64]⟩
abbrev S64 : Shape := ⟨1, ![64]⟩
abbrev S_ : Shape := ⟨0, ![]⟩

class Facts : Prop where
  bcast_S_S100000x64 : S_.BroadcastsInDim S100000x64 (![] : Fin 0 → Fin S100000x64.rank)
  reducesTo_S100000x64_S_d0_1 : S100000x64.ReducesTo [0, 1] S_
  h_S_ : 0 < S_.numel
  bcast_S_S64x64 : S_.BroadcastsInDim S64x64 (![] : Fin 0 → Fin S64x64.rank)
  reducesTo_S64x64_S_d0_1 : S64x64.ReducesTo [0, 1] S_
  bcast_S_S64 : S_.BroadcastsInDim S64 (![] : Fin 0 → Fin S64.rank)
  reducesTo_S64_S_d0 : S64.ReducesTo [0] S_

variable [Facts]

def fn_part1 {F : FTy → Type} [FloatOps F] (main_arg5 : FVec F S64x64 .f32) (main_arg6 : FVec F S64 .f32) (main_arg7 : FVec F S64x64 .f32) (main_v13 : IVec S_ 1) (main_v16 : IVec S64x64 1) : IVec S_ 1 :=
  let main_c_5 : IVec S_ 1 := constantI S_ 1 1#1
  let main_v17 : IVec S_ 1 := (fun x v => Host.reduce IntOp.andi x v reducesTo_S64x64_S_d0_1 h_S_) main_v16 main_c_5
  let main_v18 : IVec S_ 1 := andi main_v13 main_v17
  let main_v19 : FVec F S64x64 .f32 := Host.absf main_arg5
  let main_cst_6 : FVec F S_ .f32 := constant S_ .f32 0x7F800000#32
  let main_v20 : FVec F S64x64 .f32 := broadcastInDim S64x64 ![] bcast_S_S64x64 main_cst_6
  let main_v21 : IVec S64x64 1 := cmpf .olt main_v19 main_v20
  let main_c_7 : IVec S_ 1 := constantI S_ 1 1#1
  let main_v22 : IVec S_ 1 := (fun x v => Host.reduce IntOp.andi x v reducesTo_S64x64_S_d0_1 h_S_) main_v21 main_c_7
  let main_v23 : IVec S_ 1 := andi main_v18 main_v22
  let main_v24 : FVec F S64 .f32 := Host.absf main_arg6
  let main_cst_8 : FVec F S_ .f32 := constant S_ .f32 0x7F800000#32
  let main_v25 : FVec F S64 .f32 := broadcastInDim S64 ![] bcast_S_S64 main_cst_8
  let main_v26 : IVec S64 1 := cmpf .olt main_v24 main_v25
  let main_c_9 : IVec S_ 1 := constantI S_ 1 1#1
  let main_v27 : IVec S_ 1 := (fun x v => Host.reduce IntOp.andi x v reducesTo_S64_S_d0 h_S_) main_v26 main_c_9
  let main_v28 : IVec S_ 1 := andi main_v23 main_v27
  let main_v29 : FVec F S64x64 .f32 := Host.absf main_arg7
  let main_cst_10 : FVec F S_ .f32 := constant S_ .f32 0x7F800000#32
  let main_v30 : FVec F S64x64 .f32 := broadcastInDim S64x64 ![] bcast_S_S64x64 main_cst_10
  let main_v31 : IVec S64x64 1 := cmpf .olt main_v29 main_v30
  let main_c_11 : IVec S_ 1 := constantI S_ 1 1#1
  let main_v32 : IVec S_ 1 := (fun x v => Host.reduce IntOp.andi x v reducesTo_S64x64_S_d0_1 h_S_) main_v31 main_c_11
  let main_v33 : IVec S_ 1 := andi main_v28 main_v32
  main_v33

def fn {F : FTy → Type} [FloatOps F] (main_arg0 : FVec F S100000x64 .f32) (main_arg1 : IVec S2x1250000 32) (main_arg2 : FVec F S64x64 .f32) (main_arg3 : FVec F S64 .f32) (main_arg4 : FVec F S64x64 .f32) (main_arg5 : FVec F S64x64 .f32) (main_arg6 : FVec F S64 .f32) (main_arg7 : FVec F S64x64 .f32) : IVec S_ 1 :=
  let main_v0 : FVec F S100000x64 .f32 := Host.absf main_arg0
  let main_cst : FVec F S_ .f32 := constant S_ .f32 0x7F800000#32
  let main_v1 : FVec F S100000x64 .f32 := broadcastInDim S100000x64 ![] bcast_S_S100000x64 main_cst
  let main_v2 : IVec S100000x64 1 := cmpf .olt main_v0 main_v1
  let main_c : IVec S_ 1 := constantI S_ 1 1#1
  let main_v3 : IVec S_ 1 := (fun x v => Host.reduce IntOp.andi x v reducesTo_S100000x64_S_d0_1 h_S_) main_v2 main_c
  let main_v4 : FVec F S64x64 .f32 := Host.absf main_arg2
  let main_cst_0 : FVec F S_ .f32 := constant S_ .f32 0x7F800000#32
  let main_v5 : FVec F S64x64 .f32 := broadcastInDim S64x64 ![] bcast_S_S64x64 main_cst_0
  let main_v6 : IVec S64x64 1 := cmpf .olt main_v4 main_v5
  let main_c_1 : IVec S_ 1 := constantI S_ 1 1#1
  let main_v7 : IVec S_ 1 := (fun x v => Host.reduce IntOp.andi x v reducesTo_S64x64_S_d0_1 h_S_) main_v6 main_c_1
  let main_v8 : IVec S_ 1 := andi main_v3 main_v7
  let main_v9 : FVec F S64 .f32 := Host.absf main_arg3
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64x64 .f32 := Host.absf main_arg4
  let main_cst_4 : FVec F S_ .f32 := constant S_ .f32 0x7F800000#32
  let main_v15 : FVec F S64x64 .f32 := broadcastInDim S64x64 ![] bcast_S_S64x64 main_cst_4
  let main_v16 : IVec S64x64 1 := cmpf .olt main_v14 main_v15
  fn_part1 (F := F) main_arg5 main_arg6 main_arg7 main_v13 main_v16
-- ==== Kernel.lean ====
abbrev S100000x64 : Shape := ⟨2, ![100000, 64]⟩
abbrev S2x1250000 : Shape := ⟨2, ![2, 1250000]⟩
abbrev S64x64 : Shape := ⟨2, ![64, 64]⟩
abbrev S64 : Shape := ⟨1, ![64]⟩
abbrev S1x1250000 : Shape := ⟨2, ![1, 1250000]⟩
abbrev S1250000 : Shape := ⟨1, ![1250000]⟩
abbrev S_ : Shape := ⟨0, ![]⟩
abbrev S100000 : Shape := ⟨1, ![100000]⟩
abbrev S1250000x1 : Shape := ⟨2, ![1250000, 1]⟩
abbrev S100000x1 : Shape := ⟨2, ![100000, 1]⟩
abbrev S1x64 : Shape := ⟨2, ![1, 64]⟩
abbrev S1250000x64 : Shape := ⟨2, ![1250000, 64]⟩
abbrev S10000x64 : Shape := ⟨2, ![10000, 64]⟩
abbrev S10000x1 : Shape := ⟨2, ![10000, 1]⟩

abbrev nBuf : Space → Nat
  | .hbm => 49
  | .vmem => 22
  | .smem => 0
  | _ => 0

abbrev bufTy : (tb : Table) → Fin (tcTables nBuf tb) → BufTy
  | .hbm, ⟨0, _⟩ => ⟨S100000x64, .f32⟩
  | .hbm, ⟨1, _⟩ => ⟨S2x1250000, .i32⟩
  | .hbm, ⟨2, _⟩ => ⟨S64x64, .f32⟩
  | .hbm, ⟨3, _⟩ => ⟨S64, .f32⟩
  | .hbm, ⟨4, _⟩ => ⟨S64x64, .f32⟩
  | .hbm, ⟨5, _⟩ => ⟨S64x64, .f32⟩
  | .hbm, ⟨6, _⟩ => ⟨S64, .f32⟩
  | .hbm, ⟨7, _⟩ => ⟨S64x64, .f32⟩
  | .hbm, ⟨8, _⟩ => ⟨S1x1250000, .i32⟩
  | .hbm, ⟨9, _⟩ => ⟨S1250000, .i32⟩
  | .hbm, ⟨10, _⟩ => ⟨S1x1250000, .i32⟩
  | .hbm, ⟨11, _⟩ => ⟨S1250000, .i32⟩
  | .hbm, ⟨12, _⟩ => ⟨S_, .f32⟩
  | .hbm, ⟨13, _⟩ => ⟨S1250000, .f32⟩
  | .hbm, ⟨14, _⟩ => ⟨S_, .f32⟩
  | .hbm, ⟨15, _⟩ => ⟨S100000, .f32⟩
  | .hbm, ⟨16, _⟩ => ⟨S1250000x1, .i32⟩
  | .hbm, ⟨17, _⟩ => ⟨S100000, .f32⟩
  | .hbm, ⟨18, _⟩ => ⟨S100000x1, .f32⟩
  | .hbm, ⟨19, _⟩ => ⟨S1x64, .f32⟩
  | .hbm, ⟨20, _⟩ => ⟨S1x64, .f32⟩
  | .hbm, ⟨21, _⟩ => ⟨S_, .i32⟩
  | .hbm, ⟨22, _⟩ => ⟨S1250000, .i32⟩
  | .hbm, ⟨23, _⟩ => ⟨S1250000, .i1⟩
  | .hbm, ⟨24, _⟩ => ⟨S_, .i32⟩
  | .hbm, ⟨25, _⟩ => ⟨S1250000, .i32⟩
  | .hbm, ⟨26, _⟩ => ⟨S1250000, .i32⟩
  | .hbm, ⟨27, _⟩ => ⟨S1250000, .i32⟩
  | .hbm, ⟨28, _⟩ => ⟨S1250000x1, .i32⟩
  | .hbm, ⟨29, _⟩ => ⟨S1250000x64, .f32⟩
  | .hbm, ⟨30, _⟩ => ⟨S_, .f32⟩
  | .hbm, ⟨31, _⟩ => ⟨S100000x64, .f32⟩
  | .hbm, ⟨32, _⟩ => ⟨S1250000x1, .i32⟩
  | .hbm, ⟨33, _⟩ => ⟨S100000x64, .f32⟩
  | .hbm, ⟨34, _⟩ => ⟨S100000x64, .f32⟩
  | .hbm, ⟨35, _⟩ => ⟨S_, .i32⟩
  | .hbm, ⟨36, _⟩ => ⟨S1250000, .i32⟩
  | .hbm, ⟨37, _⟩ => ⟨S1250000, .i1⟩
  | .hbm, ⟨38, _⟩ => ⟨S_, .i32⟩
  | .hbm, ⟨39, _⟩ => ⟨S1250000, .i32⟩
  | .hbm, ⟨40, _⟩ => ⟨S1250000, .i32⟩
  | .hbm, ⟨41, _⟩ => ⟨S1250000, .i32⟩
  | .hbm, ⟨42, _⟩ => ⟨S1250000x1, .i32⟩
  | .hbm, ⟨43, _⟩ => ⟨S1250000x64, .f32⟩
  | .hbm, ⟨44, _⟩ => ⟨S_, .f32⟩
  | .hbm, ⟨45, _⟩ => ⟨S100000x64, .f32⟩
  | .hbm, ⟨46, _⟩ => ⟨S1250000x1, .i32⟩
  | .hbm, ⟨47, _⟩ => ⟨S100000x64, .f32⟩
  | .hbm, ⟨48, _⟩ => ⟨S100000x64, .f32⟩
  | .local _ .vmem, ⟨0, _⟩ => ⟨S10000x64, .f32⟩
  | .local _ .vmem, ⟨1, _⟩ => ⟨S10000x64, .f32⟩
  | .local _ .vmem, ⟨2, _⟩ => ⟨S10000x1, .f32⟩
  | .local _ .vmem, ⟨3, _⟩ => ⟨S10000x1, .f32⟩
  | .local _ .vmem, ⟨4, _⟩ => ⟨S10000x64, .f32⟩
  | .local _ .vmem, ⟨5, _⟩ => ⟨S10000x64, .f32⟩
  | .local _ .vmem, ⟨6, _⟩ => ⟨S64x64, .f32⟩
  | .local _ .vmem, ⟨7, _⟩ => ⟨S1x64, .f32⟩
  | .local _ .vmem, ⟨8, _⟩ => ⟨S64x64, .f32⟩
  | .local _ .vmem, ⟨9, _⟩ => ⟨S10000x64, .f32⟩
  | .local _ .vmem, ⟨10, _⟩ => ⟨S10000x64, .f32⟩
  | .local _ .vmem, ⟨11, _⟩ => ⟨S10000x64, .f32⟩
  | .local _ .vmem, ⟨12, _⟩ => ⟨S10000x64, .f32⟩
  | .local _ .vmem, ⟨13, _⟩ => ⟨S10000x1, .f32⟩
  | .local _ .vmem, ⟨14, _⟩ => ⟨S10000x1, .f32⟩
  | .local _ .vmem, ⟨15, _⟩ => ⟨S10000x64, .f32⟩
  | .local _ .vmem, ⟨16, _⟩ => ⟨S10000x64, .f32⟩
  | .local _ .vmem, ⟨17, _⟩ => ⟨S64x64, .f32⟩
  | .local _ .vmem, ⟨18, _⟩ => ⟨S1x64, .f32⟩
  | .local _ .vmem, ⟨19, _⟩ => ⟨S64x64, .f32⟩
  | .local _ .vmem, ⟨20, _⟩ => ⟨S10000x64, .f32⟩
  | .local _ .vmem, ⟨21, _⟩ => ⟨S10000x64, .f32⟩
  | _, _ => ⟨S100000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_cst : Ref sig .tc := ⟨.hbm, 12, rfl⟩
abbrev main_v4 : Ref sig .tc := ⟨.hbm, 13, rfl⟩
abbrev main_cst_0 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_c : Ref sig .tc := ⟨.hbm, 21, rfl⟩
abbrev main_v11 : Ref sig .tc := ⟨.hbm, 22, rfl⟩
abbrev main_v12 : Ref sig .tc := ⟨.hbm, 23, rfl⟩
abbrev main_c_1 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_cst_2 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_c_3 : Ref sig .tc := ⟨.hbm, 35, rfl⟩
abbrev main_v22 : Ref sig .tc := ⟨.hbm, 36, rfl⟩
abbrev main_v23 : Ref sig .tc := ⟨.hbm, 37, rfl⟩
abbrev main_c_4 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_cst_5 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc1_stg0_0 : Ref sig .tc := ⟨.vmem, 11, rfl⟩
abbrev cc1_stg0_1 : Ref sig .tc := ⟨.vmem, 12, rfl⟩
abbrev cc1_stg1_0 : Ref sig .tc := ⟨.vmem, 13, rfl⟩
abbrev cc1_stg1_1 : Ref sig .tc := ⟨.vmem, 14, rfl⟩
abbrev cc1_stg2_0 : Ref sig .tc := ⟨.vmem, 15, rfl⟩
abbrev cc1_stg2_1 : Ref sig .tc := ⟨.vmem, 16, rfl⟩
abbrev cc1_stg3_0 : Ref sig .tc := ⟨.vmem, 17, rfl⟩
abbrev cc1_stg4_0 : Ref sig .tc := ⟨.vmem, 18, rfl⟩
abbrev cc1_stg5_0 : Ref sig .tc := ⟨.vmem, 19, rfl⟩
abbrev cc1_stg6_0 : Ref sig .tc := ⟨.vmem, 20, rfl⟩
abbrev cc1_stg6_1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10
abbrev cc1_sem0_0 : DmaSem sig := 11
abbrev cc1_sem0_1 : DmaSem sig := 12
abbrev cc1_sem1_0 : DmaSem sig := 13
abbrev cc1_sem1_1 : DmaSem sig := 14
abbrev cc1_sem2_0 : DmaSem sig := 15
abbrev cc1_sem2_1 : DmaSem sig := 16
abbrev cc1_sem3_0 : DmaSem sig := 17
abbrev cc1_sem4_0 : DmaSem sig := 18
abbrev cc1_sem5_0 : DmaSem sig := 19
abbrev cc1_sem6_0 : DmaSem sig := 20
abbrev cc1_sem6_1 : DmaSem sig := 21

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S10000x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S10000x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S64x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S64x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S10000x64 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S10000x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S10000x64 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S64x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x64 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S64x64 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 2 → Memref sig .tc .vmem S10000x64 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

class Facts₀ : Prop where
  slices_S2x1250000_S1x1250000_0_0 : S2x1250000.Slices ![0, 0] S1x1250000
  shapeCasts_S1x1250000_S1250000 : S1x1250000.ShapeCasts S1250000
  slices_S2x1250000_S1x1250000_1_0 : S2x1250000.Slices ![1, 0] S1x1250000
  bcast_S_S1250000 : S_.BroadcastsInDim S1250000 (![] : Fin 0 → Fin S1250000.rank)
  bcast_S_S100000 : S_.BroadcastsInDim S100000 (![] : Fin 0 → Fin S100000.rank)
  bcast_S1250000_S1250000x1_0 : S1250000.BroadcastsInDim S1250000x1 (![0] : Fin 1 → Fin S1250000x1.rank)
  shapeCasts_S100000_S100000x1 : S100000.ShapeCasts S100000x1
  shapeCasts_S64_S1x64 : S64.ShapeCasts S1x64
  bcast_S_S100000x64 : S_.BroadcastsInDim S100000x64 (![] : Fin 0 → Fin S100000x64.rank)
  inb_S10000x1_S10000x1_0_0 : ∀ a, (![0, 0] : Fin 2 → Nat) a + S10000x1.size a ≤ S10000x1.size a
  h_S10000x1 : 0 < S10000x1.numel
  shapeCasts_S10000x1_S10000x1 : S10000x1.ShapeCasts S10000x1
  inb_S10000x64_S10000x64_0_0 : ∀ a, (![0, 0] : Fin 2 → Nat) a + S10000x64.size a ≤ S10000x64.size a
  h_S10000x64 : 0 < S10000x64.numel
  shapeCasts_S10000x64_S10000x64 : S10000x64.ShapeCasts S10000x64
  broadcasts_S10000x1_S10000x64 : S10000x1.Broadcasts S10000x64
  bitsLt_bf16_f32 : FTy.bits .bf16 < FTy.bits .f32
  inb_S64x64_S64x64_0_0 : ∀ a, (![0, 0] : Fin 2 → Nat) a + S64x64.size a ≤ S64x64.size a
  h_S64x64 : 0 < S64x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S10000x64 : S1x64.Broadcasts S10000x64
  scatter_S100000_S1250000x1_S1250000_n_0_0_1_wf : ScatterDims.WF S100000 S1250000x1 S1250000 [] [0] [0] 1
  gather_S100000x64_S1250000x1_S1250000x64_1_0_n_n_0_1_164_wf : GatherDims.WF S100000x64 S1250000x1 S1250000x64 [1] [0] [] [0] [] 1 ![1, 64]
  scatter_S100000x64_S1250000x1_S1250000x64_1_0_0_1_wf : ScatterDims.WF S100000x64 S1250000x1 S1250000x64 [1] [0] [0] 1
  dot_S10000x64_S64x64_S10000x64_1_0_0_1_n_n_wf : DotDims.WF S10000x64 S64x64 S10000x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x64.size a ≤ S100000x64.size a
  hwx0_0 : ∀ i : grid0.Coords, EltTy.bits .f32 = 32 ∨ (Rect.block (s := S100000x64) S10000x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S10000x1.size a ≤ S100000x1.size a
  hwx0_1 : ∀ i : grid0.Coords, EltTy.bits .f32 = 32 ∨ (Rect.block (s := S100000x1) S10000x1.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S10000x64.size a ≤ S100000x64.size a
  hwx0_2 : ∀ i : grid0.Coords, EltTy.bits .f32 = 32 ∨ (Rect.block (s := S100000x64) S10000x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S64x64.size a ≤ S64x64.size a
  hwx0_3 : ∀ i : grid0.Coords, EltTy.bits .f32 = 32 ∨ (Rect.block (s := S64x64) S64x64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x64.size a ≤ S1x64.size a
  hwx0_4 : ∀ i : grid0.Coords, EltTy.bits .f32 = 32 ∨ (Rect.block (s := S1x64) S1x64.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S64x64.size a ≤ S64x64.size a
  hwx0_5 : ∀ i : grid0.Coords, EltTy.bits .f32 = 32 ∨ (Rect.block (s := S64x64) S64x64.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S10000x64.size a ≤ S100000x64.size a
  hwx0_6 : ∀ i : grid0.Coords, EltTy.bits .f32 = 32 ∨ (Rect.block (s := S100000x64) S10000x64.size (cc0_transform_6 i) (hinb0_6 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x64.size a ≤ S100000x64.size a
  hwx1_0 : ∀ i : grid1.Coords, EltTy.bits .f32 = 32 ∨ (Rect.block (s := S100000x64) S10000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S10000x1.size a ≤ S100000x1.size a
  hwx1_1 : ∀ i : grid1.Coords, EltTy.bits .f32 = 32 ∨ (Rect.block (s := S100000x1) S10000x1.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S10000x64.size a ≤ S100000x64.size a
  hwx1_2 : ∀ i : grid1.Coords, EltTy.bits .f32 = 32 ∨ (Rect.block (s := S100000x64) S10000x64.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S64x64.size a ≤ S64x64.size a
  hwx1_3 : ∀ i : grid1.Coords, EltTy.bits .f32 = 32 ∨ (Rect.block (s := S64x64) S64x64.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x64.size a ≤ S1x64.size a
  hwx1_4 : ∀ i : grid1.Coords, EltTy.bits .f32 = 32 ∨ (Rect.block (s := S1x64) S1x64.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S64x64.size a ≤ S64x64.size a
  hwx1_5 : ∀ i : grid1.Coords, EltTy.bits .f32 = 32 ∨ (Rect.block (s := S64x64) S64x64.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S10000x64.size a ≤ S100000x64.size a
  hwx1_6 : ∀ i : grid1.Coords, EltTy.bits .f32 = 32 ∨ (Rect.block (s := S100000x64) S10000x64.size (cc1_transform_6 i) (hinb1_6 i)).WholeWords (EltTy.packing .f32)

variable [Facts₀]

def scatter_S100000_S1250000x1_S1250000_n_0_0_1 : ScatterDims S100000 S1250000x1 S1250000 where
  updateWindowDims := []
  insertedWindowDims := [0]
  scatterDimsToOperandDims := [0]
  indexVectorDim := 1
  wf := scatter_S100000_S1250000x1_S1250000_n_0_0_1_wf
def gather_S100000x64_S1250000x1_S1250000x64_1_0_n_n_0_1_164 : GatherDims S100000x64 S1250000x1 S1250000x64 where
  offsetDims := [1]
  collapsedSliceDims := [0]
  operandBatchingDims := []
  startIndicesBatchingDims := []
  startIndexMap := [0]
  indexVectorDim := 1
  sliceSizes := ![1, 64]
  wf := gather_S100000x64_S1250000x1_S1250000x64_1_0_n_n_0_1_164_wf
def scatter_S100000x64_S1250000x1_S1250000x64_1_0_0_1 : ScatterDims S100000x64 S1250000x1 S1250000x64 where
  updateWindowDims := [1]
  insertedWindowDims := [0]
  scatterDimsToOperandDims := [0]
  indexVectorDim := 1
  wf := scatter_S100000x64_S1250000x1_S1250000x64_1_0_0_1_wf
def dot_S10000x64_S64x64_S10000x64_1_0_0_1_n_n : DotDims S10000x64 S64x64 S10000x64 where
  lhsContracting := [1]
  rhsContracting := [0]
  lhsNonContracting := [0]
  rhsNonContracting := [1]
  lhsBatch := []
  rhsBatch := []
  wf := dot_S10000x64_S64x64_S10000x64_1_0_0_1_n_n_wf

abbrev win0_0 : Pipeline.Window sig grid0 :=
  Pipeline.Window.ofSpec (Memref.whole main_v20) S10000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v8) S10000x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg0) S10000x64.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg2) S64x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v9) S1x64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg4) S64x64.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v21) S10000x64.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev win1_0 : Pipeline.Window sig grid1 :=
  Pipeline.Window.ofSpec (Memref.whole main_v31) S10000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v8) S10000x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v21) S10000x64.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_arg5) S64x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v10) S1x64.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_arg7) S64x64.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v32) S10000x64.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

class Facts : Prop extends Facts₀ where

variable [Facts]
-- ==== ReferenceIdeal.lean ====
abbrev S100000x64 : Shape := ⟨2, ![100000, 64]⟩
abbrev S2x1250000 : Shape := ⟨2, ![2, 1250000]⟩
abbrev S64x64 : Shape := ⟨2, ![64, 64]⟩
abbrev S64 : Shape := ⟨1, ![64]⟩
abbrev S1x1250000 : Shape := ⟨2, ![1, 1250000]⟩
abbrev S1250000 : Shape := ⟨1, ![1250000]⟩
abbrev S_ : Shape := ⟨0, ![]⟩
abbrev S1250000x1 : Shape := ⟨2, ![1250000, 1]⟩
abbrev S1250000x64 : Shape := ⟨2, ![1250000, 64]⟩
abbrev S100000 : Shape := ⟨1, ![100000]⟩
abbrev S100000x1 : Shape := ⟨2, ![100000, 1]⟩
abbrev S1x64 : Shape := ⟨2, ![1, 64]⟩

abbrev nBuf : Space → Nat
  | .hbm => 77
  | .vmem => 0
  | .smem => 0
  | _ => 0

abbrev bufTy : (tb : Table) → Fin (tcTables nBuf tb) → BufTy
  | .hbm, ⟨0, _⟩ => ⟨S100000x64, .f32⟩
  | .hbm, ⟨1, _⟩ => ⟨S2x1250000, .i32⟩
  | .hbm, ⟨2, _⟩ => ⟨S64x64, .f32⟩
  | .hbm, ⟨3, _⟩ => ⟨S64, .f32⟩
  | .hbm, ⟨4, _⟩ => ⟨S64x64, .f32⟩
  | .hbm, ⟨5, _⟩ => ⟨S64x64, .f32⟩
  | .hbm, ⟨6, _⟩ => ⟨S64, .f32⟩
  | .hbm, ⟨7, _⟩ => ⟨S64x64, .f32⟩
  | .hbm, ⟨8, _⟩ => ⟨S1x1250000, .i32⟩
  | .hbm, ⟨9, _⟩ => ⟨S1250000, .i32⟩
  | .hbm, ⟨10, _⟩ => ⟨S1x1250000, .i32⟩
  | .hbm, ⟨11, _⟩ => ⟨S1250000, .i32⟩
  | .hbm, ⟨12, _⟩ => ⟨S_, .i32⟩
  | .hbm, ⟨13, _⟩ => ⟨S1250000, .i32⟩
  | .hbm, ⟨14, _⟩ => ⟨S1250000, .i1⟩
  | .hbm, ⟨15, _⟩ => ⟨S_, .i32⟩
  | .hbm, ⟨16, _⟩ => ⟨S1250000, .i32⟩
  | .hbm, ⟨17, _⟩ => ⟨S1250000, .i32⟩
  | .hbm, ⟨18, _⟩ => ⟨S1250000, .i32⟩
  | .hbm, ⟨19, _⟩ => ⟨S1250000x1, .i32⟩
  | .hbm, ⟨20, _⟩ => ⟨S1250000x64, .f32⟩
  | .hbm, ⟨21, _⟩ => ⟨S_, .f32⟩
  | .hbm, ⟨22, _⟩ => ⟨S100000x64, .f32⟩
  | .hbm, ⟨23, _⟩ => ⟨S1250000x1, .i32⟩
  | .hbm, ⟨24, _⟩ => ⟨S100000x64, .f32⟩
  | .hbm, ⟨25, _⟩ => ⟨S_, .f32⟩
  | .hbm, ⟨26, _⟩ => ⟨S1250000, .f32⟩
  | .hbm, ⟨27, _⟩ => ⟨S_, .f32⟩
  | .hbm, ⟨28, _⟩ => ⟨S100000, .f32⟩
  | .hbm, ⟨29, _⟩ => ⟨S1250000x1, .i32⟩
  | .hbm, ⟨30, _⟩ => ⟨S100000, .f32⟩
  | .hbm, ⟨31, _⟩ => ⟨S_, .f32⟩
  | .hbm, ⟨32, _⟩ => ⟨S100000, .f32⟩
  | .hbm, ⟨33, _⟩ => ⟨S100000, .f32⟩
  | .hbm, ⟨34, _⟩ => ⟨S100000x1, .f32⟩
  | .hbm, ⟨35, _⟩ => ⟨S100000x64, .f32⟩
  | .hbm, ⟨36, _⟩ => ⟨S100000x64, .f32⟩
  | .hbm, ⟨37, _⟩ => ⟨S100000x64, .f32⟩
  | .hbm, ⟨38, _⟩ => ⟨S1x64, .f32⟩
  | .hbm, ⟨39, _⟩ => ⟨S100000x64, .f32⟩
  | .hbm, ⟨40, _⟩ => ⟨S100000x64, .f32⟩
  | .hbm, ⟨41, _⟩ => ⟨S100000x64, .f32⟩
  | .hbm, ⟨42, _⟩ => ⟨S100000x64, .f32⟩
  | .hbm, ⟨43, _⟩ => ⟨S_, .f32⟩
  | .hbm, ⟨44, _⟩ => ⟨S100000x64, .f32⟩
  | .hbm, ⟨45, _⟩ => ⟨S100000x64, .f32⟩
  | .hbm, ⟨46, _⟩ => ⟨S_, .i32⟩
  | .hbm, ⟨47, _⟩ => ⟨S1250000, .i32⟩
  | .hbm, ⟨48, _⟩ => ⟨S1250000, .i1⟩
  | .hbm, ⟨49, _⟩ => ⟨S_, .i32⟩
  | .hbm, ⟨50, _⟩ => ⟨S1250000, .i32⟩
  | .hbm, ⟨51, _⟩ => ⟨S1250000, .i32⟩
  | .hbm, ⟨52, _⟩ => ⟨S1250000, .i32⟩
  | .hbm, ⟨53, _⟩ => ⟨S1250000x1, .i32⟩
  | .hbm, ⟨54, _⟩ => ⟨S1250000x64, .f32⟩
  | .hbm, ⟨55, _⟩ => ⟨S_, .f32⟩
  | .hbm, ⟨56, _⟩ => ⟨S100000x64, .f32⟩
  | .hbm, ⟨57, _⟩ => ⟨S1250000x1, .i32⟩
  | .hbm, ⟨58, _⟩ => ⟨S100000x64, .f32⟩
  | .hbm, ⟨59, _⟩ => ⟨S_, .f32⟩
  | .hbm, ⟨60, _⟩ => ⟨S1250000, .f32⟩
  | .hbm, ⟨61, _⟩ => ⟨S_, .f32⟩
  | .hbm, ⟨62, _⟩ => ⟨S100000, .f32⟩
  | .hbm, ⟨63, _⟩ => ⟨S1250000x1, .i32⟩
  | .hbm, ⟨64, _⟩ => ⟨S100000, .f32⟩
  | .hbm, ⟨65, _⟩ => ⟨S_, .f32⟩
  | .hbm, ⟨66, _⟩ => ⟨S100000, .f32⟩
  | .hbm, ⟨67, _⟩ => ⟨S100000, .f32⟩
  | .hbm, ⟨68, _⟩ => ⟨S100000x1, .f32⟩
  | .hbm, ⟨69, _⟩ => ⟨S100000x64, .f32⟩
  | .hbm, ⟨70, _⟩ => ⟨S100000x64, .f32⟩
  | .hbm, ⟨71, _⟩ => ⟨S100000x64, .f32⟩
  | .hbm, ⟨72, _⟩ => ⟨S1x64, .f32⟩
  | .hbm, ⟨73, _⟩ => ⟨S100000x64, .f32⟩
  | .hbm, ⟨74, _⟩ => ⟨S100000x64, .f32⟩
  | .hbm, ⟨75, _⟩ => ⟨S100000x64, .f32⟩
  | .hbm, ⟨76, _⟩ => ⟨S100000x64, .f32⟩
  | _, _ => ⟨S100000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_c : Ref sig .tc := ⟨.hbm, 12, rfl⟩
abbrev main_v4 : Ref sig .tc := ⟨.hbm, 13, rfl⟩
abbrev main_v5 : Ref sig .tc := ⟨.hbm, 14, rfl⟩
abbrev main_c_0 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst_1 : Ref sig .tc := ⟨.hbm, 25, rfl⟩
abbrev main_v14 : Ref sig .tc := ⟨.hbm, 26, rfl⟩
abbrev main_cst_2 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_cst_3 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_call0_cst : Ref sig .tc := ⟨.hbm, 43, rfl⟩
abbrev main_call0_v0 : Ref sig .tc := ⟨.hbm, 44, rfl⟩
abbrev main_v29 : Ref sig .tc := ⟨.hbm, 45, rfl⟩
abbrev main_c_4 : Ref sig .tc := ⟨.hbm, 46, rfl⟩
abbrev main_v30 : Ref sig .tc := ⟨.hbm, 47, rfl⟩
abbrev main_v31 : Ref sig .tc := ⟨.hbm, 48, rfl⟩
abbrev main_c_5 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_cst_6 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_cst_7 : Ref sig .tc := ⟨.hbm, 59, rfl⟩
abbrev main_v40 : Ref sig .tc := ⟨.hbm, 60, rfl⟩
abbrev main_cst_8 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_cst_9 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩

abbrev nD : Nat := 1
abbrev τ : Topo := Topo.v7x

variable {F : FTy → Type} [FloatOps F]

class Facts₀ : Prop where
  slices_S2x1250000_S1x1250000_0_0 : S2x1250000.Slices ![0, 0] S1x1250000
  shapeCasts_S1x1250000_S1250000 : S1x1250000.ShapeCasts S1250000
  slices_S2x1250000_S1x1250000_1_0 : S2x1250000.Slices ![1, 0] S1x1250000
  bcast_S_S1250000 : S_.BroadcastsInDim S1250000 (![] : Fin 0 → Fin S1250000.rank)
  bcast_S1250000_S1250000x1_0 : S1250000.BroadcastsInDim S1250000x1 (![0] : Fin 1 → Fin S1250000x1.rank)
  bcast_S_S100000x64 : S_.BroadcastsInDim S100000x64 (![] : Fin 0 → Fin S100000x64.rank)
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x64_0_1 : S100000x1.BroadcastsInDim S100000x64 (![0, 1] : Fin 2 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  gather_S100000x64_S1250000x1_S1250000x64_1_0_n_n_0_1_164_wf : GatherDims.WF S100000x64 S1250000x1 S1250000x64 [1] [0] [] [0] [] 1 ![1, 64]
  scatter_S100000x64_S1250000x1_S1250000x64_1_0_0_1_wf : ScatterDims.WF S100000x64 S1250000x1 S1250000x64 [1] [0] [0] 1
  scatter_S100000_S1250000x1_S1250000_n_0_0_1_wf : ScatterDims.WF S100000 S1250000x1 S1250000 [] [0] [0] 1
  dot_S100000x64_S64x64_S100000x64_1_0_0_1_n_n_wf : DotDims.WF S100000x64 S64x64 S100000x64 [1] [0] [0] [1] [] []

variable [Facts₀]

def gather_S100000x64_S1250000x1_S1250000x64_1_0_n_n_0_1_164 : GatherDims S100000x64 S1250000x1 S1250000x64 where
  offsetDims := [1]
  collapsedSliceDims := [0]
  operandBatchingDims := []
  startIndicesBatchingDims := []
  startIndexMap := [0]
  indexVectorDim := 1
  sliceSizes := ![1, 64]
  wf := gather_S100000x64_S1250000x1_S1250000x64_1_0_n_n_0_1_164_wf
def scatter_S100000x64_S1250000x1_S1250000x64_1_0_0_1 : ScatterDims S100000x64 S1250000x1 S1250000x64 where
  updateWindowDims := [1]
  insertedWindowDims := [0]
  scatterDimsToOperandDims := [0]
  indexVectorDim := 1
  wf := scatter_S100000x64_S1250000x1_S1250000x64_1_0_0_1_wf
def scatter_S100000_S1250000x1_S1250000_n_0_0_1 : ScatterDims S100000 S1250000x1 S1250000 where
  updateWindowDims := []
  insertedWindowDims := [0]
  scatterDimsToOperandDims := [0]
  indexVectorDim := 1
  wf := scatter_S100000_S1250000x1_S1250000_n_0_0_1_wf
def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf

class Facts : Prop extends Facts₀ where

variable [Facts]
-- ==== Proof.KernelRun.lean ====
import proofs.«166124_j49280454754828_2_alg».proof.Proof.Gen.KernelIdeal.Frame

/-!
# The kernel program's run, with its result named

The program is two kernel regions among host operations. Its run is a chain of four segments: the host
operations that build the first aggregate and the degree count, the first dense layer, the host operations
that aggregate the first layer's output, the second dense layer. The contents of every buffer at each
boundary are a fold from the launch memory; the last boundary's contents are `W4`. Here the same run is
read at the result buffer as well as at the arguments: every weakly fair execution ends, nothing faults,
the result holds `W4` at its reference and the arguments hold what they were launched with.
-/

set_option maxRecDepth 16384

noncomputable section

namespace Cert.KernelIdeal.ResultRun

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program ends without a fault; the result buffer then holds the last
    boundary's contents at its reference, and each argument what it held at launch. -/
theorem run_result : θ_run defs (onTc (τ := τ) (main (F := F))) ⟨m, fun _ => 0, ρ⟩ (fun r => ∀ c : Dev nD,
      r.2.mem ((c.tc : Thread nD τ).loc main_v32) = W4 m ρ c (Proc.devRef .tc main_v32)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c =>
      ⟨h c _ (mem_uc main_v32 (by decide)),
       (h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c),
       (h c _ (mem_uc main_arg3 (by decide))).trans (W4_main_arg3 m ρ c),
       (h c _ (mem_uc main_arg4 (by decide))).trans (W4_main_arg4 m ρ c),
       (h c _ (mem_uc main_arg5 (by decide))).trans (W4_main_arg5 m ρ c),
       (h c _ (mem_uc main_arg6 (by decide))).trans (W4_main_arg6 m ρ c),
       (h c _ (mem_uc main_arg7 (by decide))).trans (W4_main_arg7 m ρ c)⟩)

end Cert.KernelIdeal.ResultRun

end
-- ==== Proof.SageLayer.lean ====
import Idealize.ShloMosaic.Lib.Pipeline.Value
import Idealize.ShloMosaic.Lib.ValueIdx
import Idealize.ShloMosaic.PureOps.Ideal.Laws

/-!
# One mean-aggregation layer on the extended reals

A layer takes, for every node `r`, the sum `agg r` of its in-neighbours' feature rows and the number `cnt r`
of them, and returns at output feature `j`

  ( Σₖ (agg r k / max (cnt r) 1) · Wl k j  +  b j )  +  Σₖ x r k · Wr k j .

The count is kept as a column (one entry per node) and the bias as a row (one entry per feature), which is
how both programs hold them when they enter the arithmetic. The grouping of the two additions is the one both
programs use, so no law of addition is needed between them; the two sums run over `Fin 64`, the order of a
finite sum in a commutative monoid being immaterial. Nothing here needs the entries to be finite.

A node's value depends only on that node's rows of `agg`, `cnt` and `x`: `pre_congr` says so, and it is what
lets a block of ten thousand consecutive nodes be computed from the matching blocks of the three arrays.
-/

noncomputable section

namespace Cert.Sage

open Idealize.ShloMosaic Idealize.ShloMosaic.ValueIdx
open scoped BigOperators

/-- The floor of the neighbour count: the f32 word of the number one. -/
abbrev oneW : EReal := Ideal.ofBits .f32 0x3F800000#32
/-- The floor of the activation: the f32 word of zero. -/
abbrev zeroW : EReal := Ideal.ofBits .f32 0x00000000#32

/-- The layer before its activation at node `r`, output feature `j`, over `n` nodes. -/
def pre {n : ℕ} (agg : (⟨2, ![n, 64]⟩ : Shape).Idx → EReal) (cnt : (⟨2, ![n, 1]⟩ : Shape).Idx → EReal)
    (x : (⟨2, ![n, 64]⟩ : Shape).Idx → EReal) (Wl : (⟨2, ![64, 64]⟩ : Shape).Idx → EReal)
    (b : (⟨2, ![1, 64]⟩ : Shape).Idx → EReal) (Wr : (⟨2, ![64, 64]⟩ : Shape).Idx → EReal)
    (r : Fin n) (j : Fin 64) : EReal :=
  ((∑ k : Fin 64, Ideal.div (agg (ix2 r k)) (max (cnt (ix2 r (0 : Fin 1))) oneW) * Wl (ix2 k j)) + b (ix2 (0 : Fin 1) j))
    + ∑ k : Fin 64, x (ix2 r k) * Wr (ix2 k j)

/-- The value at a node and feature depends on that node's rows of the three node arrays, on that feature's
    column of the two matrices and on that feature's bias entry, and on nothing else. -/
theorem pre_congr {n n' : ℕ} {agg x : (⟨2, ![n, 64]⟩ : Shape).Idx → EReal} {cnt : (⟨2, ![n, 1]⟩ : Shape).Idx → EReal}
    {agg' x' : (⟨2, ![n', 64]⟩ : Shape).Idx → EReal} {cnt' : (⟨2, ![n', 1]⟩ : Shape).Idx → EReal}
    {Wl Wr Wl' Wr' : (⟨2, ![64, 64]⟩ : Shape).Idx → EReal} {b b' : (⟨2, ![1, 64]⟩ : Shape).Idx → EReal}
    {r : Fin n} {r' : Fin n'} {j : Fin 64}
    (hagg : ∀ k : Fin 64, agg (ix2 r k) = agg' (ix2 r' k)) (hcnt : cnt (ix2 r (0 : Fin 1)) = cnt' (ix2 r' (0 : Fin 1)))
    (hx : ∀ k : Fin 64, x (ix2 r k) = x' (ix2 r' k)) (hWl : ∀ k : Fin 64, Wl (ix2 k j) = Wl' (ix2 k j))
    (hb : b (ix2 (0 : Fin 1) j) = b' (ix2 (0 : Fin 1) j)) (hWr : ∀ k : Fin 64, Wr (ix2 k j) = Wr' (ix2 k j)) :
    pre agg cnt x Wl b Wr r j = pre agg' cnt' x' Wl' b' Wr' r' j := by
  unfold pre
  rw [hcnt, hb]
  simp only [hagg, hx, hWl, hWr]

/-- The first layer's output array: the layer, floored at zero. -/
def hidden (agg : (⟨2, ![100000, 64]⟩ : Shape).Idx → EReal) (cnt : (⟨2, ![100000, 1]⟩ : Shape).Idx → EReal)
    (x : (⟨2, ![100000, 64]⟩ : Shape).Idx → EReal) (Wl : (⟨2, ![64, 64]⟩ : Shape).Idx → EReal)
    (b : (⟨2, ![1, 64]⟩ : Shape).Idx → EReal) (Wr : (⟨2, ![64, 64]⟩ : Shape).Idx → EReal) :
    (⟨2, ![100000, 64]⟩ : Shape).Idx → EReal :=
  fun i => max (pre agg cnt x Wl b Wr (i 0) (i 1)) zeroW

/-- The second layer's output array: the layer with no activation. -/
def output (agg : (⟨2, ![100000, 64]⟩ : Shape).Idx → EReal) (cnt : (⟨2, ![100000, 1]⟩ : Shape).Idx → EReal)
    (x : (⟨2, ![100000, 64]⟩ : Shape).Idx → EReal) (Wl : (⟨2, ![64, 64]⟩ : Shape).Idx → EReal)
    (b : (⟨2, ![1, 64]⟩ : Shape).Idx → EReal) (Wr : (⟨2, ![64, 64]⟩ : Shape).Idx → EReal) :
    (⟨2, ![100000, 64]⟩ : Shape).Idx → EReal :=
  fun i => pre agg cnt x Wl b Wr (i 0) (i 1)

end Cert.Sage

end
-- ==== Proof.LibKeepdims.lean ====
/-
  A reduction that keeps its axis (a row sum with keepdims), read at an index written by coordinates.

  A row-wise statistic of an `[a, b]` vector — its sum over the lanes — is a vector `[a]`; kept as a column it is
  cast to `[a, 1]` and broadcast back over the `b` lanes.  Three readings make that chain transparent at an
  index `(p, c)`:
  • the lane sum at row `p` is the sum, over `k : Fin b`, of the entries `(p, k)`;
  • the cast `[a] → [a, 1]` reads, at `(i, u)`, the vector at `i` (the unit coordinate `u` carries nothing);
  • the broadcast `[a, 1] → [a, b]` reads, at `(p, c)`, the column's entry of row `p`.
  The row-major position of `(i, u)` in `[a, 1]` is `i · 1 + u = i`, that of `i` in `[a]` is `i`: the cast is the
  identity on positions.  A broadcast keeps a coordinate on an axis of extent other than one and reads `0` on a unit
  axis; when `a = 1` the row coordinate is `0` anyway.
-/
import Idealize.ShloMosaic.Lib.Pipeline.Value
import Idealize.ShloMosaic.Lib.ValueIdx
import Idealize.ShloMosaic.PureOps.Ideal.Laws

namespace Cert.Keepdims

open Idealize.ShloMosaic Idealize.ShloMosaic.ValueIdx
open scoped BigOperators

variable {α : Type}

/-- An `[a]` vector cast to the column `[a, 1]` reads, at `(i, u)`, the vector at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast over `b` lanes reads, at `(p, c)`, the column's entry of row `p`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- On the extended reals the sum over the lanes of an `[a, b]` vector, read at row `p`, is the sum of that row's
    entries.  The side conditions are arguments, so the lemma meets a reduction whatever proofs it carries. -/
theorem multiReduction_add_rows {a b : ℕ} {φ : FTy} (src : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ)
    (p : Fin a) :
    multiReduction .add [1] ⟨1, ![a]⟩ src acc h hφ hacc (ix1 p) = ∑ k : Fin b, src (ix2 p k) := by
  refine (Ideal.multiReduction_add_single src acc h hφ hacc (ix1 p)).trans ?_
  refine Finset.sum_congr rfl fun k _ => ?_
  exact congrArg src (funext fun c => Fin.ext (by match c with | ⟨0, _⟩ => rfl | ⟨1, _⟩ => rfl))

end Cert.Keepdims
-- ==== Proof.BodyValue.lean ====
import proofs.«166124_j49280454754828_2_alg».proof.Proof.Gen.KernelIdeal.Skeleton
import proofs.«166124_j49280454754828_2_alg».proof.Proof.SageLayer
import proofs.«166124_j49280454754828_2_alg».proof.Proof.LibKeepdims
import Idealize.ShloMosaic.Lib.ValueLayout

/-!
# What one grid point computes, read at an index

Each kernel body loads a block of ten thousand nodes of the aggregate, of the count column and of the root
features, the two weight matrices and the bias row, and stores one block of the layer. Read at row `p` of the
block and feature `q`, the stored value is the layer's formula over the loaded blocks: the count is floored at
one and spread over the 64 lanes, the aggregate divided by it entry by entry, each matrix product into a zero
accumulator is the sum over the 64 contracted positions of the products, a narrowing of the float format is
the identity on the extended reals, the bias row is spread over the rows. The first body floors the result at
zero, the second does not.
-/

noncomputable section

namespace Cert.KernelIdeal.Body

open Cert.KernelIdeal Cert.KernelIdeal.Gen Idealize.ShloMosaic Idealize.ShloMosaic.ValueIdx
open scoped BigOperators

/-- The block product's left operand is read at the output's row and the contracted position. -/
theorem lhs_0 (i : S10000x64.Idx) (q : dot_S10000x64_S64x64_S10000x64_1_0_0_1_n_n.contr.Idx) :
    (dot_S10000x64_S64x64_S10000x64_1_0_0_1_n_n.lhsIdx i q 0).val = (i 0).val := by
  unfold DotDims.lhsIdx
  rw [dif_neg (show ¬(0 : Fin S10000x64.rank) ∈ dot_S10000x64_S64x64_S10000x64_1_0_0_1_n_n.lhsBatch by decide), dif_pos (show (0 : Fin S10000x64.rank) ∈ dot_S10000x64_S64x64_S10000x64_1_0_0_1_n_n.lhsNonContracting by decide)]
  rfl
theorem lhs_1 (i : S10000x64.Idx) (q : dot_S10000x64_S64x64_S10000x64_1_0_0_1_n_n.contr.Idx) :
    (dot_S10000x64_S64x64_S10000x64_1_0_0_1_n_n.lhsIdx i q 1).val = (q ⟨0, by decide⟩).val :=
  dot_S10000x64_S64x64_S10000x64_1_0_0_1_n_n.lhsIdx_val_of_single rfl i q
/-- Its right operand is read at the contracted position and the output's column. -/
theorem rhs_0 (i : S10000x64.Idx) (q : dot_S10000x64_S64x64_S10000x64_1_0_0_1_n_n.contr.Idx) :
    (dot_S10000x64_S64x64_S10000x64_1_0_0_1_n_n.rhsIdx i q 0).val = (q ⟨0, by decide⟩).val :=
  dot_S10000x64_S64x64_S10000x64_1_0_0_1_n_n.rhsIdx_val_of_single rfl i q
theorem rhs_1 (i : S10000x64.Idx) (q : dot_S10000x64_S64x64_S10000x64_1_0_0_1_n_n.contr.Idx) :
    (dot_S10000x64_S64x64_S10000x64_1_0_0_1_n_n.rhsIdx i q 1).val = (i 1).val := by
  unfold DotDims.rhsIdx
  rw [dif_neg (show ¬(1 : Fin S64x64.rank) ∈ dot_S10000x64_S64x64_S10000x64_1_0_0_1_n_n.rhsBatch by decide), dif_pos (show (1 : Fin S64x64.rank) ∈ dot_S10000x64_S64x64_S10000x64_1_0_0_1_n_n.rhsNonContracting by decide)]
  rfl

/-- A block's matrix product into a zero accumulator, at row `p` and column `q`: the sum over the 64 contracted
    positions of the products. -/
theorem blockDot {φ₁ φ₂ : FTy} (l : FVec Ideal S10000x64 φ₁) (r : FVec Ideal S64x64 φ₂) (p : Fin 10000) (q : Fin 64) :
    matmul dot_S10000x64_S64x64_S10000x64_1_0_0_1_n_n none l r (constant (F := Ideal) S10000x64 .f32 0x00000000#32) (ix2 p q)
      = ∑ k : Fin 64, l (ix2 p k) * r (ix2 k q) := by
  simp only [matmul]
  rw [Ideal.matmul_constant_zero_apply, ← Equiv.sum_comp (ValueIdx.contrEquiv1 dot_S10000x64_S64x64_S10000x64_1_0_0_1_n_n 64 rfl rfl).symm]
  refine Finset.sum_congr rfl fun k _ => ?_
  have hk := ValueIdx.contrEquiv1_symm_val dot_S10000x64_S64x64_S10000x64_1_0_0_1_n_n 64 rfl rfl k
  have el : dot_S10000x64_S64x64_S10000x64_1_0_0_1_n_n.lhsIdx (ix2 p q) ((ValueIdx.contrEquiv1 dot_S10000x64_S64x64_S10000x64_1_0_0_1_n_n 64 rfl rfl).symm k) = ix2 p k := funext fun a => Fin.ext (by
    match a with
    | ⟨0, _⟩ => exact lhs_0 _ _
    | ⟨1, _⟩ => exact (lhs_1 _ _).trans hk)
  have er : dot_S10000x64_S64x64_S10000x64_1_0_0_1_n_n.rhsIdx (ix2 p q) ((ValueIdx.contrEquiv1 dot_S10000x64_S64x64_S10000x64_1_0_0_1_n_n 64 rfl rfl).symm k) = ix2 k q := funext fun a => Fin.ext (by
    match a with
    | ⟨0, _⟩ => exact (rhs_0 _ _).trans hk
    | ⟨1, _⟩ => exact rhs_1 _ _)
  rw [el, er]

/-- The first body's stored value at row `p`, feature `q`: the layer over the loaded blocks, floored at zero. -/
theorem first_at (cnt : Vec Ideal S10000x1 .f32) (agg x : Vec Ideal S10000x64 .f32) (Wl Wr : Vec Ideal S64x64 .f32)
    (b : Vec Ideal S1x64 .f32) (p : Fin 10000) (q : Fin 64) :
    k0_pay1 (F := Ideal) cnt agg x Wl Wr b (ix2 p q) = max (Cert.Sage.pre agg cnt x Wl b Wr p q) Cert.Sage.zeroW := by
  unfold k0_pay1 Cert.Sage.pre
  simp only [maximumf_apply, addf_apply, broadcast_apply, blockDot, truncf_apply, divf_apply, shapeCast_self,
    Cert.Keepdims.broadcastTo_a1_ab_apply, broadcastTo_1b_ab_apply]
  rfl

/-- The second body's stored value at row `p`, feature `q`: the layer over the loaded blocks. -/
theorem second_at (cnt : Vec Ideal S10000x1 .f32) (agg x : Vec Ideal S10000x64 .f32) (Wl Wr : Vec Ideal S64x64 .f32)
    (b : Vec Ideal S1x64 .f32) (p : Fin 10000) (q : Fin 64) :
    k1_pay1 (F := Ideal) cnt agg x Wl Wr b (ix2 p q) = Cert.Sage.pre agg cnt x Wl b Wr p q := by
  unfold k1_pay1 Cert.Sage.pre
  simp only [addf_apply, maximumf_apply, broadcast_apply, blockDot, truncf_apply, divf_apply, shapeCast_self,
    Cert.Keepdims.broadcastTo_a1_ab_apply, broadcastTo_1b_ab_apply]
  rfl

end Cert.KernelIdeal.Body

end
-- ==== Proof.RegionValue.lean ====
import proofs.«166124_j49280454754828_2_alg».proof.Proof.Gen.KernelIdeal.Frame
import proofs.«166124_j49280454754828_2_alg».proof.Proof.BodyValue

/-!
# Each region's output array as one function of the arrays it enters with

A region runs its body at ten grid points; point `t` reads rows `10000 t … 10000 t + 9999` of the aggregate,
the count column and the root features, and the whole of the two matrices and of the bias row, and writes the
same rows of the output. The ten blocks tile the output, so after the region the output array is, row by row,
the layer of the arrays the region was entered with — whatever those arrays are: everything here is stated for
arbitrary buffer contents `V` at the region's entry.
-/

set_option maxRecDepth 16384

noncomputable section

namespace Cert.KernelIdeal.Region

open Cert.KernelIdeal Cert.KernelIdeal.Gen Idealize.ShloMosaic Idealize.ShloMosaic.TcCoe Idealize.ShloMosaic.ValueIdx
open Idealize.SL.Sem
open Idealize.ShloMosaic.Pipeline (Dat Cfg Window)

variable (V : (c : Dev nD) → (b : Ref sig .tc) → Buf (Elt Ideal) ((c : Thread nD τ).loc b))

theorem hz : (![0, 0] : Fin 2 → Nat) = fun _ => 0 := funext fun a => by fin_cases a <;> rfl

/-- Row `p` of grid point `t`'s block is row `10000 t + p` of the array. -/
def row (t : Fin 10) (p : Fin 10000) : Fin 100000 := ⟨t.val * 10000 + p.val, by have := t.isLt; have := p.isLt; omega⟩

/-! ## The first dense layer's region -/

/-- Over the grid of ten points: the three node arrays and the output move one block of ten thousand rows per
    point, the matrices and the bias row stay at their one block. -/
theorem idx0 : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = t.val ∧ win0_6.index t (1 : Fin 2) = 0 :=
  (by decide +kernel : ∀ t : Fin grid0.N, _)

/-- The aggregate's block at point `t`, row `p`: the array at row `10000 t + p`. -/
theorem agg0_at (c : Dev nD) (t : Fin cfg0.N) (p : Fin 10000) (k : Fin 64) :
    iblk0 V c 0 t (ix2 p k) = V c main_v20 (ix2 (row t p) k) := by
  show V c main_v20 (((cfg0.win 0).blk t).view.emb (ix2 p k)) = _
  refine congrArg (V c main_v20) ?_
  obtain ⟨e0, e1, -⟩ := idx0 t
  funext a; apply Fin.ext
  match a with
  | ⟨0, _⟩ => show win0_0.index t (0 : Fin 2) * 10000 + 1 * p.val = t.val * 10000 + p.val; omega
  | ⟨1, _⟩ => show win0_0.index t (1 : Fin 2) * 64 + 1 * k.val = k.val; omega

/-- The count column's block at point `t`, row `p`: the column at row `10000 t + p`. -/
theorem cnt0_at (c : Dev nD) (t : Fin cfg0.N) (p : Fin 10000) :
    iblk0 V c 1 t (ix2 p (0 : Fin 1)) = V c main_v8 (ix2 (row t p) (0 : Fin 1)) := by
  show V c main_v8 (((cfg0.win 1).blk t).view.emb (ix2 p (0 : Fin 1))) = _
  refine congrArg (V c main_v8) ?_
  obtain ⟨-, -, e0, e1, -⟩ := idx0 t
  funext a; apply Fin.ext
  match a with
  | ⟨0, _⟩ => show win0_1.index t (0 : Fin 2) * 10000 + 1 * p.val = t.val * 10000 + p.val; omega
  | ⟨1, _⟩ => show win0_1.index t (1 : Fin 2) * 1 + 1 * 0 = 0; omega

/-- The root features' block at point `t`, row `p`: the array at row `10000 t + p`. -/
theorem root0_at (c : Dev nD) (t : Fin cfg0.N) (p : Fin 10000) (k : Fin 64) :
    iblk0 V c 2 t (ix2 p k) = V c main_arg0 (ix2 (row t p) k) := by
  show V c main_arg0 (((cfg0.win 2).blk t).view.emb (ix2 p k)) = _
  refine congrArg (V c main_arg0) ?_
  obtain ⟨-, -, -, -, e0, e1, -⟩ := idx0 t
  funext a; apply Fin.ext
  match a with
  | ⟨0, _⟩ => show win0_2.index t (0 : Fin 2) * 10000 + 1 * p.val = t.val * 10000 + p.val; omega
  | ⟨1, _⟩ => show win0_2.index t (1 : Fin 2) * 64 + 1 * k.val = k.val; omega

/-- The neighbour matrix's one block is the matrix. -/
theorem wl0_at (c : Dev nD) (t : Fin cfg0.N) (k q : Fin 64) :
    iblk0 V c 3 t (ix2 k q) = V c main_arg2 (ix2 k q) := by
  show V c main_arg2 (((cfg0.win 3).blk t).view.emb (ix2 k q)) = _
  refine congrArg (V c main_arg2) ?_
  obtain ⟨-, -, -, -, -, -, e0, e1, -⟩ := idx0 t
  funext a; apply Fin.ext
  match a with
  | ⟨0, _⟩ => show win0_3.index t (0 : Fin 2) * 64 + 1 * k.val = k.val; omega
  | ⟨1, _⟩ => show win0_3.index t (1 : Fin 2) * 64 + 1 * q.val = q.val; omega

/-- The bias row's one block is the row. -/
theorem bias0_at (c : Dev nD) (t : Fin cfg0.N) (q : Fin 64) :
    iblk0 V c 4 t (ix2 (0 : Fin 1) q) = V c main_v9 (ix2 (0 : Fin 1) q) := by
  show V c main_v9 (((cfg0.win 4).blk t).view.emb (ix2 (0 : Fin 1) q)) = _
  refine congrArg (V c main_v9) ?_
  obtain ⟨-, -, -, -, -, -, -, -, e0, e1, -⟩ := idx0 t
  funext a; apply Fin.ext
  match a with
  | ⟨0, _⟩ => show win0_4.index t (0 : Fin 2) * 1 + 1 * 0 = 0; omega
  | ⟨1, _⟩ => show win0_4.index t (1 : Fin 2) * 64 + 1 * q.val = q.val; omega

/-- The root matrix's one block is the matrix. -/
theorem wr0_at (c : Dev nD) (t : Fin cfg0.N) (k q : Fin 64) :
    iblk0 V c 5 t (ix2 k q) = V c main_arg4 (ix2 k q) := by
  show V c main_arg4 (((cfg0.win 5).blk t).view.emb (ix2 k q)) = _
  refine congrArg (V c main_arg4) ?_
  obtain ⟨-, -, -, -, -, -, -, -, -, -, e0, e1, -⟩ := idx0 t
  funext a; apply Fin.ext
  match a with
  | ⟨0, _⟩ => show win0_5.index t (0 : Fin 2) * 64 + 1 * k.val = k.val; omega
  | ⟨1, _⟩ => show win0_5.index t (1 : Fin 2) * 64 + 1 * q.val = q.val; omega

/-- The output's block at point `t` sits at rows `10000 t … 10000 t + 9999`. -/
theorem out0_emb (t : Fin cfg0.N) (p : Fin 10000) (q : Fin 64) :
    ((cfg0.win 6).blk t).view.emb (ix2 p q) = ix2 (row t p) q := by
  obtain ⟨-, -, -, -, -, -, -, -, -, -, -, -, e0, e1⟩ := idx0 t
  funext a; apply Fin.ext
  match a with
  | ⟨0, _⟩ => show win0_6.index t (0 : Fin 2) * 10000 + 1 * p.val = t.val * 10000 + p.val; omega
  | ⟨1, _⟩ => show win0_6.index t (1 : Fin 2) * 64 + 1 * q.val = q.val; omega

/-- What point `t` writes back is block `t` of the layer of the arrays as the region finds them. -/
theorem flushed0 (c : Dev nD) (t : Fin cfg0.N) :
    (dat0 (F := Ideal) V c).flushed 6 t = ((cfg0.win 6).blk t).view.read (Elt Ideal)
      (Cert.Sage.hidden (V c main_v20) (V c main_v8) (V c main_arg0) (V c main_arg2) (V c main_v9) (V c main_arg4)) := by
  show (cfg0.win 6).cut (grid0.coords t) ((dat0 V c).after 6 t) = _
  rw [after0_6]
  unfold out0_6
  rw [View.canon_unit_zero hz]
  simp only [View.ld_unit_zero (S := S10000x64) hz, View.ld_unit_zero (S := S10000x1) hz, View.ld_unit_zero (S := S64x64) hz,
    View.ld_unit_zero (S := S1x64) hz]
  funext j
  obtain ⟨p, q, rfl⟩ : ∃ (p : Fin 10000) (q : Fin 64), j = ix2 p q := ⟨j 0, j 1, eq_ix2 j⟩
  refine (Cert.KernelIdeal.Body.first_at _ _ _ _ _ _ p q).trans ?_
  show _ = Cert.Sage.hidden _ _ _ _ _ _ (((cfg0.win 6).blk t).view.emb (ix2 p q))
  rw [out0_emb t p q]
  show _ = max (Cert.Sage.pre _ _ _ _ _ _ (row t p) q) Cert.Sage.zeroW
  rw [Cert.Sage.pre_congr (fun k => agg0_at V c t p k) (cnt0_at V c t p) (fun k => root0_at V c t p k)
    (fun k => wl0_at V c t k q) (bias0_at V c t q) (fun k => wr0_at V c t k q)]

/-- An index of the output array is in point `t`'s block iff each coordinate is in the block's range. -/
theorem mem_blk0 (t : Fin cfg0.N) (i : S100000x64.Idx) :
    i ∈ ((cfg0.win 6).blk t).view.set ↔ ∀ a : Fin 2, win0_6.index t a * S10000x64.size a ≤ (i a).val ∧ (i a).val < win0_6.index t a * S10000x64.size a + S10000x64.size a := by
  show i ∈ ((View.whole main_v21).slice (win0_6.rect t)).set ↔ _
  rw [View.set_slice_whole, Rect.mem_set_unit]
  exact Iff.rfl

/-- Every row of the output belongs to the point that owns its block of ten thousand rows. -/
theorem cover0 (i : S100000x64.Idx) : ∃ t : Fin cfg0.N, (cfg0.win 6).flush t = true ∧ i ∈ ((cfg0.win 6).blk t).view.set := by
  have hi0 : (i 0).val < 100000 := (i 0).isLt
  have hi1 : (i 1).val < 64 := (i 1).isLt
  let t : Fin cfg0.N := ⟨(i 0).val / 10000, by show (i 0).val / 10000 < 10; omega⟩
  have ht : t.val = (i 0).val / 10000 := rfl
  obtain ⟨-, -, -, -, -, -, -, -, -, -, -, -, e0, e1⟩ := idx0 t
  refine ⟨t, flush0_6 t, ?_⟩
  rw [mem_blk0]
  intro a
  match a with
  | ⟨0, _⟩ => show win0_6.index t (0 : Fin 2) * 10000 ≤ (i 0).val ∧ (i 0).val < win0_6.index t (0 : Fin 2) * 10000 + 10000; omega
  | ⟨1, _⟩ => show win0_6.index t (1 : Fin 2) * 64 ≤ (i 1).val ∧ (i 1).val < win0_6.index t (1 : Fin 2) * 64 + 64; omega

/-- After the region its output array is the layer of the arrays as the region finds them. -/
theorem array0 (c : Dev nD) : (dat0 (F := Ideal) V c).arrAt 6 cfg0.N
    = Cert.Sage.hidden (V c main_v20) (V c main_v8) (V c main_arg0) (V c main_arg2) (V c main_v9) (V c main_arg4) :=
  (dat0 (F := Ideal) V c).arrAt_eq_of_cover 6 _ (fun t _ => flushed0 V c t) (fun i => cover0 i)

/-! ## The second dense layer's region -/

/-- Over the grid of ten points: the three node arrays and the output move one block of ten thousand rows per
    point, the matrices and the bias row stay at their one block. -/
theorem idx1 : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) = t.val ∧ win1_6.index t (1 : Fin 2) = 0 :=
  (by decide +kernel : ∀ t : Fin grid1.N, _)

/-- The aggregate's block at point `t`, row `p`: the array at row `10000 t + p`. -/
theorem agg1_at (c : Dev nD) (t : Fin cfg1.N) (p : Fin 10000) (k : Fin 64) :
    iblk1 V c 0 t (ix2 p k) = V c main_v31 (ix2 (row t p) k) := by
  show V c main_v31 (((cfg1.win 0).blk t).view.emb (ix2 p k)) = _
  refine congrArg (V c main_v31) ?_
  obtain ⟨e0, e1, -⟩ := idx1 t
  funext a; apply Fin.ext
  match a with
  | ⟨0, _⟩ => show win1_0.index t (0 : Fin 2) * 10000 + 1 * p.val = t.val * 10000 + p.val; omega
  | ⟨1, _⟩ => show win1_0.index t (1 : Fin 2) * 64 + 1 * k.val = k.val; omega

/-- The count column's block at point `t`, row `p`: the column at row `10000 t + p`. -/
theorem cnt1_at (c : Dev nD) (t : Fin cfg1.N) (p : Fin 10000) :
    iblk1 V c 1 t (ix2 p (0 : Fin 1)) = V c main_v8 (ix2 (row t p) (0 : Fin 1)) := by
  show V c main_v8 (((cfg1.win 1).blk t).view.emb (ix2 p (0 : Fin 1))) = _
  refine congrArg (V c main_v8) ?_
  obtain ⟨-, -, e0, e1, -⟩ := idx1 t
  funext a; apply Fin.ext
  match a with
  | ⟨0, _⟩ => show win1_1.index t (0 : Fin 2) * 10000 + 1 * p.val = t.val * 10000 + p.val; omega
  | ⟨1, _⟩ => show win1_1.index t (1 : Fin 2) * 1 + 1 * 0 = 0; omega

/-- The root features' block at point `t`, row `p`: the array at row `10000 t + p`. -/
theorem root1_at (c : Dev nD) (t : Fin cfg1.N) (p : Fin 10000) (k : Fin 64) :
    iblk1 V c 2 t (ix2 p k) = V c main_v21 (ix2 (row t p) k) := by
  show V c main_v21 (((cfg1.win 2).blk t).view.emb (ix2 p k)) = _
  refine congrArg (V c main_v21) ?_
  obtain ⟨-, -, -, -, e0, e1, -⟩ := idx1 t
  funext a; apply Fin.ext
  match a with
  | ⟨0, _⟩ => show win1_2.index t (0 : Fin 2) * 10000 + 1 * p.val = t.val * 10000 + p.val; omega
  | ⟨1, _⟩ => show win1_2.index t (1 : Fin 2) * 64 + 1 * k.val = k.val; omega

/-- The neighbour matrix's one block is the matrix. -/
theorem wl1_at (c : Dev nD) (t : Fin cfg1.N) (k q : Fin 64) :
    iblk1 V c 3 t (ix2 k q) = V c main_arg5 (ix2 k q) := by
  show V c main_arg5 (((cfg1.win 3).blk t).view.emb (ix2 k q)) = _
  refine congrArg (V c main_arg5) ?_
  obtain ⟨-, -, -, -, -, -, e0, e1, -⟩ := idx1 t
  funext a; apply Fin.ext
  match a with
  | ⟨0, _⟩ => show win1_3.index t (0 : Fin 2) * 64 + 1 * k.val = k.val; omega
  | ⟨1, _⟩ => show win1_3.index t (1 : Fin 2) * 64 + 1 * q.val = q.val; omega

/-- The bias row's one block is the row. -/
theorem bias1_at (c : Dev nD) (t : Fin cfg1.N) (q : Fin 64) :
    iblk1 V c 4 t (ix2 (0 : Fin 1) q) = V c main_v10 (ix2 (0 : Fin 1) q) := by
  show V c main_v10 (((cfg1.win 4).blk t).view.emb (ix2 (0 : Fin 1) q)) = _
  refine congrArg (V c main_v10) ?_
  obtain ⟨-, -, -, -, -, -, -, -, e0, e1, -⟩ := idx1 t
  funext a; apply Fin.ext
  match a with
  | ⟨0, _⟩ => show win1_4.index t (0 : Fin 2) * 1 + 1 * 0 = 0; omega
  | ⟨1, _⟩ => show win1_4.index t (1 : Fin 2) * 64 + 1 * q.val = q.val; omega

/-- The root matrix's one block is the matrix. -/
theorem wr1_at (c : Dev nD) (t : Fin cfg1.N) (k q : Fin 64) :
    iblk1 V c 5 t (ix2 k q) = V c main_arg7 (ix2 k q) := by
  show V c main_arg7 (((cfg1.win 5).blk t).view.emb (ix2 k q)) = _
  refine congrArg (V c main_arg7) ?_
  obtain ⟨-, -, -, -, -, -, -, -, -, -, e0, e1, -⟩ := idx1 t
  funext a; apply Fin.ext
  match a with
  | ⟨0, _⟩ => show win1_5.index t (0 : Fin 2) * 64 + 1 * k.val = k.val; omega
  | ⟨1, _⟩ => show win1_5.index t (1 : Fin 2) * 64 + 1 * q.val = q.val; omega

/-- The output's block at point `t` sits at rows `10000 t … 10000 t + 9999`. -/
theorem out1_emb (t : Fin cfg1.N) (p : Fin 10000) (q : Fin 64) :
    ((cfg1.win 6).blk t).view.emb (ix2 p q) = ix2 (row t p) q := by
  obtain ⟨-, -, -, -, -, -, -, -, -, -, -, -, e0, e1⟩ := idx1 t
  funext a; apply Fin.ext
  match a with
  | ⟨0, _⟩ => show win1_6.index t (0 : Fin 2) * 10000 + 1 * p.val = t.val * 10000 + p.val; omega
  | ⟨1, _⟩ => show win1_6.index t (1 : Fin 2) * 64 + 1 * q.val = q.val; omega

/-- What point `t` writes back is block `t` of the layer of the arrays as the region finds them. -/
theorem flushed1 (c : Dev nD) (t : Fin cfg1.N) :
    (dat1 (F := Ideal) V c).flushed 6 t = ((cfg1.win 6).blk t).view.read (Elt Ideal)
      (Cert.Sage.output (V c main_v31) (V c main_v8) (V c main_v21) (V c main_arg5) (V c main_v10) (V c main_arg7)) := by
  show (cfg1.win 6).cut (grid1.coords t) ((dat1 V c).after 6 t) = _
  rw [after1_6]
  unfold out1_6
  rw [View.canon_unit_zero hz]
  simp only [View.ld_unit_zero (S := S10000x64) hz, View.ld_unit_zero (S := S10000x1) hz, View.ld_unit_zero (S := S64x64) hz,
    View.ld_unit_zero (S := S1x64) hz]
  funext j
  obtain ⟨p, q, rfl⟩ : ∃ (p : Fin 10000) (q : Fin 64), j = ix2 p q := ⟨j 0, j 1, eq_ix2 j⟩
  refine (Cert.KernelIdeal.Body.second_at _ _ _ _ _ _ p q).trans ?_
  show _ = Cert.Sage.output _ _ _ _ _ _ (((cfg1.win 6).blk t).view.emb (ix2 p q))
  rw [out1_emb t p q]
  show _ = Cert.Sage.pre _ _ _ _ _ _ (row t p) q
  rw [Cert.Sage.pre_congr (fun k => agg1_at V c t p k) (cnt1_at V c t p) (fun k => root1_at V c t p k)
    (fun k => wl1_at V c t k q) (bias1_at V c t q) (fun k => wr1_at V c t k q)]

/-- An index of the output array is in point `t`'s block iff each coordinate is in the block's range. -/
theorem mem_blk1 (t : Fin cfg1.N) (i : S100000x64.Idx) :
    i ∈ ((cfg1.win 6).blk t).view.set ↔ ∀ a : Fin 2, win1_6.index t a * S10000x64.size a ≤ (i a).val ∧ (i a).val < win1_6.index t a * S10000x64.size a + S10000x64.size a := by
  show i ∈ ((View.whole main_v32).slice (win1_6.rect t)).set ↔ _
  rw [View.set_slice_whole, Rect.mem_set_unit]
  exact Iff.rfl

/-- Every row of the output belongs to the point that owns its block of ten thousand rows. -/
theorem cover1 (i : S100000x64.Idx) : ∃ t : Fin cfg1.N, (cfg1.win 6).flush t = true ∧ i ∈ ((cfg1.win 6).blk t).view.set := by
  have hi0 : (i 0).val < 100000 := (i 0).isLt
  have hi1 : (i 1).val < 64 := (i 1).isLt
  let t : Fin cfg1.N := ⟨(i 0).val / 10000, by show (i 0).val / 10000 < 10; omega⟩
  have ht : t.val = (i 0).val / 10000 := rfl
  obtain ⟨-, -, -, -, -, -, -, -, -, -, -, -, e0, e1⟩ := idx1 t
  refine ⟨t, flush1_6 t, ?_⟩
  rw [mem_blk1]
  intro a
  match a with
  | ⟨0, _⟩ => show win1_6.index t (0 : Fin 2) * 10000 ≤ (i 0).val ∧ (i 0).val < win1_6.index t (0 : Fin 2) * 10000 + 10000; omega
  | ⟨1, _⟩ => show win1_6.index t (1 : Fin 2) * 64 ≤ (i 1).val ∧ (i 1).val < win1_6.index t (1 : Fin 2) * 64 + 64; omega

/-- After the region its output array is the layer of the arrays as the region finds them. -/
theorem array1 (c : Dev nD) : (dat1 (F := Ideal) V c).arrAt 6 cfg1.N
    = Cert.Sage.output (V c main_v31) (V c main_v8) (V c main_v21) (V c main_arg5) (V c main_v10) (V c main_arg7) :=
  (dat1 (F := Ideal) V c).arrAt_eq_of_cover 6 _ (fun t _ => flushed1 V c t) (fun i => cover1 i)

end Cert.KernelIdeal.Region

end
-- ==== Proof.Columns.lean ====
import proofs.«166124_j49280454754828_2_alg».proof.Proof.SageLayer
import proofs.«166124_j49280454754828_2_alg».proof.Proof.LibKeepdims
import Idealize.ShloMosaic.Lib.ValueLayout

/-!
# A vector held as a column, and as a row

The layer takes the neighbour count as a column, one entry per node, and the bias as a row, one entry per
feature. A vector over the nodes reshaped to `[n, 1]` is that column and a vector over the features reshaped to
`[1, 64]` is that row: a reshape keeps the row-major position, and the unit axis contributes nothing to it.
-/

noncomputable section

namespace Cert.Sage

open Idealize.ShloMosaic Idealize.ShloMosaic.ValueIdx

/-- A vector over `n` nodes as a column: entry `(r, 0)` is the vector's entry `r`. -/
def column {α : Type} {n : ℕ} (v : (⟨1, ![n]⟩ : Shape).Idx → α) : (⟨2, ![n, 1]⟩ : Shape).Idx → α := fun i => v (ix1 (i 0))

/-- A vector over `n` features as a row: entry `(0, j)` is the vector's entry `j`. -/
def asRow {α : Type} {n : ℕ} (v : (⟨1, ![n]⟩ : Shape).Idx → α) : (⟨2, ![1, n]⟩ : Shape).Idx → α := fun i => v (ix1 (i 1))

/-- Reshaping `[n]` to `[n, 1]` gives the column. -/
theorem shapeCast_column {α : Type} {n : ℕ} (v : (⟨1, ![n]⟩ : Shape).Idx → α) (h : (⟨1, ![n]⟩ : Shape).ShapeCasts ⟨2, ![n, 1]⟩) :
    shapeCast ⟨2, ![n, 1]⟩ v h = column v := by
  funext i
  obtain ⟨r, u, rfl⟩ : ∃ (r : Fin n) (u : Fin 1), i = ix2 r u := ⟨i 0, i 1, eq_ix2 i⟩
  exact Cert.Keepdims.shapeCast_a_a1_apply v h r u

/-- Reshaping `[n]` to `[1, n]` gives the row. -/
theorem shapeCast_asRow {α : Type} {n : ℕ} (v : (⟨1, ![n]⟩ : Shape).Idx → α) (h : (⟨1, ![n]⟩ : Shape).ShapeCasts ⟨2, ![1, n]⟩) :
    shapeCast ⟨2, ![1, n]⟩ v h = asRow v := by
  funext i
  obtain ⟨u, j, rfl⟩ : ∃ (u : Fin 1) (j : Fin n), i = ix2 u j := ⟨i 0, i 1, eq_ix2 i⟩
  exact shapeCast_a_1a_apply v h u j

end Cert.Sage

end
-- ==== Proof.RefLayers.lean ====
import proofs.«166124_j49280454754828_2_alg».proof.Proof.Gen.ReferenceIdeal.Read
import proofs.«166124_j49280454754828_2_alg».proof.Proof.SageLayer
import proofs.«166124_j49280454754828_2_alg».proof.Proof.Columns

/-!
# The reference's two layers are the layer function

The reference computes each layer with whole-array host operations: the count floored at one, spread to a
column and over the lanes, the aggregate divided by it, two matrix products, the bias spread over the rows, and
for the first layer a floor at zero. Read at node `r` and feature `j` through its stages this is the layer's
formula, with the count held as a column and the bias as a row; the aggregate and the count stay the opaque
results of the gather and scatter-add stages.
-/

noncomputable section

namespace Cert.ReferenceIdeal.Layers

open Cert.ReferenceIdeal Cert.ReferenceIdeal.Gen Cert.ReferenceIdeal.Read Idealize.ShloMosaic Idealize.ShloMosaic.ValueIdx
open scoped BigOperators

/-- The first layer's neighbour mean at node `r`, feature `k`: the aggregate over the in-degree floored at one. -/
theorem mean_first (x0 : (⟨S100000x64, .f32⟩ : BufTy).Contents (Elt Ideal)) (x1 : (⟨S2x1250000, .i32⟩ : BufTy).Contents (Elt Ideal)) (r : Fin 100000) (k : Fin 64) :
    val_main_v22 (F := Ideal) x0 x1 (ix2 r k)
      = Ideal.div (val_main_v13 (F := Ideal) x0 x1 (ix2 r k)) (max (val_main_v17 (F := Ideal) x1 (ix1 r)) Cert.Sage.oneW) := by
  have e : idx_main_v20 (idx_main_v21 (ix2 r k)) = ix1 r := funext fun a => Fin.ext (by match a with | ⟨0, _⟩ => rfl)
  rw [val_main_v22_apply, val_main_v21_apply, val_main_v20_apply, val_main_v19_apply, val_main_v18_apply, val_main_cst_3_apply, e]
  rfl

/-- The second layer's neighbour mean, likewise over the second aggregate. -/
theorem mean_second (x0 : (⟨S100000x64, .f32⟩ : BufTy).Contents (Elt Ideal)) (x1 : (⟨S2x1250000, .i32⟩ : BufTy).Contents (Elt Ideal)) (x2 : (⟨S64x64, .f32⟩ : BufTy).Contents (Elt Ideal)) (x3 : (⟨S64, .f32⟩ : BufTy).Contents (Elt Ideal)) (x4 : (⟨S64x64, .f32⟩ : BufTy).Contents (Elt Ideal)) (r : Fin 100000) (k : Fin 64) :
    val_main_v48 (F := Ideal) x0 x1 x2 x3 x4 (ix2 r k)
      = Ideal.div (val_main_v39 (F := Ideal) x0 x1 x2 x3 x4 (ix2 r k)) (max (val_main_v43 (F := Ideal) x1 (ix1 r)) Cert.Sage.oneW) := by
  have e : idx_main_v46 (idx_main_v47 (ix2 r k)) = ix1 r := funext fun a => Fin.ext (by match a with | ⟨0, _⟩ => rfl)
  rw [val_main_v48_apply, val_main_v47_apply, val_main_v46_apply, val_main_v45_apply, val_main_v44_apply, val_main_cst_9_apply, e]
  rfl

/-- The first layer: the reference's activation stage is the layer of its own aggregate and in-degree, floored
    at zero. -/
theorem first (x0 : (⟨S100000x64, .f32⟩ : BufTy).Contents (Elt Ideal)) (x1 : (⟨S2x1250000, .i32⟩ : BufTy).Contents (Elt Ideal)) (x2 : (⟨S64x64, .f32⟩ : BufTy).Contents (Elt Ideal)) (x3 : (⟨S64, .f32⟩ : BufTy).Contents (Elt Ideal)) (x4 : (⟨S64x64, .f32⟩ : BufTy).Contents (Elt Ideal)) :
    val_main_v29 (F := Ideal) x0 x1 x2 x3 x4
      = Cert.Sage.hidden (val_main_v13 (F := Ideal) x0 x1) (Cert.Sage.column (val_main_v17 (F := Ideal) x1)) x0 x2 (Cert.Sage.asRow x3) x4 := by
  funext i
  obtain ⟨r, j, rfl⟩ : ∃ (r : Fin 100000) (j : Fin 64), i = ix2 r j := ⟨i 0, i 1, eq_ix2 i⟩
  have e1 : ∀ k : Fin 64, lidx_main_v23 (ix2 r j) k = ix2 r k := fun k => funext fun a => Fin.ext (by match a with | ⟨0, _⟩ => rfl | ⟨1, _⟩ => rfl)
  have e2 : ∀ k : Fin 64, ridx_main_v23 (ix2 r j) k = ix2 k j := fun k => funext fun a => Fin.ext (by match a with | ⟨0, _⟩ => rfl | ⟨1, _⟩ => rfl)
  have e3 : ∀ k : Fin 64, lidx_main_v27 (ix2 r j) k = ix2 r k := fun k => funext fun a => Fin.ext (by match a with | ⟨0, _⟩ => rfl | ⟨1, _⟩ => rfl)
  have e4 : ∀ k : Fin 64, ridx_main_v27 (ix2 r j) k = ix2 k j := fun k => funext fun a => Fin.ext (by match a with | ⟨0, _⟩ => rfl | ⟨1, _⟩ => rfl)
  have e7 : idx_main_v25 (ix2 r j) = ix2 (0 : Fin 1) j := funext fun a => Fin.ext (by match a with | ⟨0, _⟩ => rfl | ⟨1, _⟩ => rfl)
  have e8 : idx_main_v24 (ix2 (0 : Fin 1) j) = ix1 j := funext fun a => Fin.ext (by match a with | ⟨0, _⟩ => rfl)
  rw [val_main_v29_apply, val_main_v28_apply, val_main_v26_apply, val_main_v23_apply, val_main_v27_apply, val_main_v25_apply,
    val_main_v24_apply, val_main_call0_v0_apply, val_main_call0_cst_apply]
  have hA : (∑ k : Fin 64, val_main_v22 (F := Ideal) x0 x1 (lidx_main_v23 (ix2 r j) k) * x2 (ridx_main_v23 (ix2 r j) k))
      = ∑ k : Fin 64, Ideal.div (val_main_v13 (F := Ideal) x0 x1 (ix2 r k)) (max (val_main_v17 (F := Ideal) x1 (ix1 r)) Cert.Sage.oneW) * x2 (ix2 k j) :=
    Finset.sum_congr rfl fun k _ => by rw [e1 k, e2 k, mean_first x0 x1 r k]
  have hB : x3 (idx_main_v24 (idx_main_v25 (ix2 r j))) = x3 (ix1 j) := by rw [e7, e8]
  have hC : (∑ k : Fin 64, x0 (lidx_main_v27 (ix2 r j) k) * x4 (ridx_main_v27 (ix2 r j) k))
      = ∑ k : Fin 64, x0 (ix2 r k) * x4 (ix2 k j) :=
    Finset.sum_congr rfl fun k _ => by rw [e3 k, e4 k]
  rw [hA, hB, hC]
  show _ = max (Cert.Sage.pre _ _ _ _ _ _ r j) Cert.Sage.zeroW
  unfold Cert.Sage.pre Cert.Sage.column Cert.Sage.asRow
  rfl

/-- The second layer: the reference's last stage is the layer of its second aggregate and in-degree over the
    first layer's output. -/
theorem second (x0 : (⟨S100000x64, .f32⟩ : BufTy).Contents (Elt Ideal)) (x1 : (⟨S2x1250000, .i32⟩ : BufTy).Contents (Elt Ideal)) (x2 : (⟨S64x64, .f32⟩ : BufTy).Contents (Elt Ideal)) (x3 : (⟨S64, .f32⟩ : BufTy).Contents (Elt Ideal)) (x4 : (⟨S64x64, .f32⟩ : BufTy).Contents (Elt Ideal)) (x5 : (⟨S64x64, .f32⟩ : BufTy).Contents (Elt Ideal)) (x6 : (⟨S64, .f32⟩ : BufTy).Contents (Elt Ideal)) (x7 : (⟨S64x64, .f32⟩ : BufTy).Contents (Elt Ideal)) :
    val_main_v54 (F := Ideal) x0 x1 x2 x3 x4 x5 x6 x7
      = Cert.Sage.output (val_main_v39 (F := Ideal) x0 x1 x2 x3 x4) (Cert.Sage.column (val_main_v43 (F := Ideal) x1))
          (val_main_v29 (F := Ideal) x0 x1 x2 x3 x4) x5 (Cert.Sage.asRow x6) x7 := by
  funext i
  obtain ⟨r, j, rfl⟩ : ∃ (r : Fin 100000) (j : Fin 64), i = ix2 r j := ⟨i 0, i 1, eq_ix2 i⟩
  have e1 : ∀ k : Fin 64, lidx_main_v49 (ix2 r j) k = ix2 r k := fun k => funext fun a => Fin.ext (by match a with | ⟨0, _⟩ => rfl | ⟨1, _⟩ => rfl)
  have e2 : ∀ k : Fin 64, ridx_main_v49 (ix2 r j) k = ix2 k j := fun k => funext fun a => Fin.ext (by match a with | ⟨0, _⟩ => rfl | ⟨1, _⟩ => rfl)
  have e3 : ∀ k : Fin 64, lidx_main_v53 (ix2 r j) k = ix2 r k := fun k => funext fun a => Fin.ext (by match a with | ⟨0, _⟩ => rfl | ⟨1, _⟩ => rfl)
  have e4 : ∀ k : Fin 64, ridx_main_v53 (ix2 r j) k = ix2 k j := fun k => funext fun a => Fin.ext (by match a with | ⟨0, _⟩ => rfl | ⟨1, _⟩ => rfl)
  have e7 : idx_main_v51 (ix2 r j) = ix2 (0 : Fin 1) j := funext fun a => Fin.ext (by match a with | ⟨0, _⟩ => rfl | ⟨1, _⟩ => rfl)
  have e8 : idx_main_v50 (ix2 (0 : Fin 1) j) = ix1 j := funext fun a => Fin.ext (by match a with | ⟨0, _⟩ => rfl)
  rw [val_main_v54_apply, val_main_v52_apply, val_main_v49_apply, val_main_v53_apply, val_main_v51_apply, val_main_v50_apply]
  have hA : (∑ k : Fin 64, val_main_v48 (F := Ideal) x0 x1 x2 x3 x4 (lidx_main_v49 (ix2 r j) k) * x5 (ridx_main_v49 (ix2 r j) k))
      = ∑ k : Fin 64, Ideal.div (val_main_v39 (F := Ideal) x0 x1 x2 x3 x4 (ix2 r k)) (max (val_main_v43 (F := Ideal) x1 (ix1 r)) Cert.Sage.oneW) * x5 (ix2 k j) :=
    Finset.sum_congr rfl fun k _ => by rw [e1 k, e2 k, mean_second x0 x1 x2 x3 x4 r k]
  have hB : x6 (idx_main_v50 (idx_main_v51 (ix2 r j))) = x6 (ix1 j) := by rw [e7, e8]
  have hC : (∑ k : Fin 64, val_main_v29 (F := Ideal) x0 x1 x2 x3 x4 (lidx_main_v53 (ix2 r j) k) * x7 (ridx_main_v53 (ix2 r j) k))
      = ∑ k : Fin 64, val_main_v29 (F := Ideal) x0 x1 x2 x3 x4 (ix2 r k) * x7 (ix2 k j) :=
    Finset.sum_congr rfl fun k _ => by rw [e3 k, e4 k]
  rw [hA, hB, hC]
  show _ = Cert.Sage.pre _ _ _ _ _ _ r j
  unfold Cert.Sage.pre Cert.Sage.column Cert.Sage.asRow
  rfl

/-- The second aggregate as a function of the first layer's output `h`: the scatter-add by target of the gather
    by source of `h`. The gather and the scatter-add stay closed. -/
def agg2 (h : (⟨S100000x64, .f32⟩ : BufTy).Contents (Elt Ideal)) (x1 : (⟨S2x1250000, .i32⟩ : BufTy).Contents (Elt Ideal)) :
    (⟨S100000x64, .f32⟩ : BufTy).Contents (Elt Ideal) :=
  Host.scatterAdd (F := Ideal) (φ := .f32) (w := 32) scatter_S100000x64_S1250000x1_S1250000x64_1_0_0_1
    (val_main_v37 (F := Ideal)) (val_main_v38 (F := Ideal) x1)
    (Host.gather (w := 32) gather_S100000x64_S1250000x1_S1250000x64_1_0_n_n_0_1_164 h (val_main_v35 (F := Ideal) x1))

/-- The reference's second aggregate is that function of its first layer. -/
theorem agg_second (x0 : (⟨S100000x64, .f32⟩ : BufTy).Contents (Elt Ideal)) (x1 : (⟨S2x1250000, .i32⟩ : BufTy).Contents (Elt Ideal)) (x2 : (⟨S64x64, .f32⟩ : BufTy).Contents (Elt Ideal)) (x3 : (⟨S64, .f32⟩ : BufTy).Contents (Elt Ideal)) (x4 : (⟨S64x64, .f32⟩ : BufTy).Contents (Elt Ideal)) :
    val_main_v39 (F := Ideal) x0 x1 x2 x3 x4 = agg2 (val_main_v29 (F := Ideal) x0 x1 x2 x3 x4) x1 := rfl

/-- The reference computes the in-degree twice, by the same operations. -/
theorem degree_same (x1 : (⟨S2x1250000, .i32⟩ : BufTy).Contents (Elt Ideal)) : val_main_v43 (F := Ideal) x1 = val_main_v17 (F := Ideal) x1 := rfl

/-- The reference's result as a function of the arguments: the second layer over the aggregate of the first
    layer's output, the first layer over the aggregate of the features. -/
theorem result (x0 : (⟨S100000x64, .f32⟩ : BufTy).Contents (Elt Ideal)) (x1 : (⟨S2x1250000, .i32⟩ : BufTy).Contents (Elt Ideal)) (x2 : (⟨S64x64, .f32⟩ : BufTy).Contents (Elt Ideal)) (x3 : (⟨S64, .f32⟩ : BufTy).Contents (Elt Ideal)) (x4 : (⟨S64x64, .f32⟩ : BufTy).Contents (Elt Ideal)) (x5 : (⟨S64x64, .f32⟩ : BufTy).Contents (Elt Ideal)) (x6 : (⟨S64, .f32⟩ : BufTy).Contents (Elt Ideal)) (x7 : (⟨S64x64, .f32⟩ : BufTy).Contents (Elt Ideal)) :
    val_main_v54 (F := Ideal) x0 x1 x2 x3 x4 x5 x6 x7
      = Cert.Sage.output (agg2 (Cert.Sage.hidden (val_main_v13 (F := Ideal) x0 x1) (Cert.Sage.column (val_main_v17 (F := Ideal) x1)) x0 x2 (Cert.Sage.asRow x3) x4) x1) (Cert.Sage.column (val_main_v17 (F := Ideal) x1))
          (Cert.Sage.hidden (val_main_v13 (F := Ideal) x0 x1) (Cert.Sage.column (val_main_v17 (F := Ideal) x1)) x0 x2 (Cert.Sage.asRow x3) x4) x5 (Cert.Sage.asRow x6) x7 := by
  rw [second, agg_second, degree_same, first]

end Cert.ReferenceIdeal.Layers

end
-- ==== Proof.HostReads.lean ====
import proofs.«166124_j49280454754828_2_alg».proof.Proof.KernelRun
import proofs.«166124_j49280454754828_2_alg».proof.Proof.RegionValue
import proofs.«166124_j49280454754828_2_alg».proof.Proof.Columns
import proofs.«166124_j49280454754828_2_alg».proof.Proof.RefLayers

/-!
# What the kernel program's buffers hold at each boundary, in the reference's vocabulary

Before the first region the host operations have built, from the arguments: the aggregate of the features
over each node's in-neighbours (a gather by source, a scatter-add by target), the in-degree (a scatter-add of
ones) reshaped to a column, and the first bias reshaped to a row. These are the very operations the reference
applies, so each is named by the reference's own stage; the gather and the scatter-add are never opened. The
first region then leaves the first layer in its output; the second stretch aggregates that output by the same
gather and scatter-add; the second region leaves the second layer. Reading the last boundary's contents back
through the two regions and the two stretches gives the result as a function of the arguments.
-/

set_option maxRecDepth 16384

noncomputable section

namespace Cert.KernelIdeal.HostSide

open Cert.KernelIdeal Cert.KernelIdeal.Gen Idealize.ShloMosaic Idealize.ShloMosaic.TcCoe Idealize.ShloMosaic.ValueIdx
open Idealize.SL.Sem Idealize.ShloMosaic.StableHlo
open Idealize.ShloMosaic.Pipeline (Dat Cfg Window)

variable (m : (ℓ : Loc nD τ sig) → Buf (Elt Ideal) ℓ) (ρ : Dev nD → PrngReg)

/-- The arguments as launched. -/
abbrev a0 (c : Dev nD) := m ((c : Thread nD τ).loc main_arg0)
abbrev a1 (c : Dev nD) := m ((c : Thread nD τ).loc main_arg1)
abbrev a2 (c : Dev nD) := m ((c : Thread nD τ).loc main_arg2)
abbrev a3 (c : Dev nD) := m ((c : Thread nD τ).loc main_arg3)
abbrev a4 (c : Dev nD) := m ((c : Thread nD τ).loc main_arg4)
abbrev a5 (c : Dev nD) := m ((c : Thread nD τ).loc main_arg5)
abbrev a6 (c : Dev nD) := m ((c : Thread nD τ).loc main_arg6)
abbrev a7 (c : Dev nD) := m ((c : Thread nD τ).loc main_arg7)

/-! ## Entering the first region -/

set_option maxHeartbeats 4000000 in
/-- The first aggregate is the reference's. -/
theorem agg_first (c : Dev nD) : V1 (F := Ideal) m ρ c main_v20 = Cert.ReferenceIdeal.Read.val_main_v13 (F := Ideal) (a0 m c) (a1 m c) := by
  show StableHlo.after hostOps0 (W0 m ρ c) (Proc.devRef .tc main_v20) = _
  dsimp only [hostOps0]
  after_results_simp
  rfl

set_option maxHeartbeats 4000000 in
/-- The count column is the reference's in-degree held as a column. -/
theorem cnt_first (c : Dev nD) : V1 (F := Ideal) m ρ c main_v8 = Cert.Sage.column (Cert.ReferenceIdeal.Read.val_main_v17 (F := Ideal) (a1 m c)) := by
  show StableHlo.after hostOps0 (W0 m ρ c) (Proc.devRef .tc main_v8) = _
  dsimp only [hostOps0]
  after_results_simp
  refine (Cert.Sage.shapeCast_column _ _).trans ?_
  rfl

set_option maxHeartbeats 4000000 in
theorem root_first (c : Dev nD) : V1 (F := Ideal) m ρ c main_arg0 = a0 m c := by
  show StableHlo.after hostOps0 (W0 m ρ c) (Proc.devRef .tc main_arg0) = _
  dsimp only [hostOps0]
  after_results_simp

set_option maxHeartbeats 4000000 in
theorem wl_first (c : Dev nD) : V1 (F := Ideal) m ρ c main_arg2 = a2 m c := by
  show StableHlo.after hostOps0 (W0 m ρ c) (Proc.devRef .tc main_arg2) = _
  dsimp only [hostOps0]
  after_results_simp

set_option maxHeartbeats 4000000 in
/-- The first bias row is the first bias held as a row. -/
theorem bias_first (c : Dev nD) : V1 (F := Ideal) m ρ c main_v9 = Cert.Sage.asRow (a3 m c) := by
  show StableHlo.after hostOps0 (W0 m ρ c) (Proc.devRef .tc main_v9) = _
  dsimp only [hostOps0]
  after_results_simp
  exact Cert.Sage.shapeCast_asRow _ _

set_option maxHeartbeats 4000000 in
theorem wr_first (c : Dev nD) : V1 (F := Ideal) m ρ c main_arg4 = a4 m c := by
  show StableHlo.after hostOps0 (W0 m ρ c) (Proc.devRef .tc main_arg4) = _
  dsimp only [hostOps0]
  after_results_simp

/-- The first layer's output on the extended reals, as a function of the arguments. -/
abbrev H (c : Dev nD) : (⟨2, ![100000, 64]⟩ : Shape).Idx → EReal :=
  Cert.Sage.hidden (Cert.ReferenceIdeal.Read.val_main_v13 (F := Ideal) (a0 m c) (a1 m c)) (Cert.Sage.column (Cert.ReferenceIdeal.Read.val_main_v17 (F := Ideal) (a1 m c)))
    (a0 m c) (a2 m c) (Cert.Sage.asRow (a3 m c)) (a4 m c)

/-- After the first region its output holds the first layer. -/
theorem hidden_at (c : Dev nD) : W2 (F := Ideal) m ρ c (Proc.devRef .tc main_v21) = H m c := by
  refine (W2_arr m ρ c 6).trans ((Cert.KernelIdeal.Region.array0 (V1 m ρ) c).trans ?_)
  rw [agg_first m ρ c, cnt_first m ρ c, root_first m ρ c, wl_first m ρ c, bias_first m ρ c, wr_first m ρ c]

/-! ## Entering the second region -/

set_option maxHeartbeats 4000000 in
/-- The edges' sources, read after the first region: no region and no later operation writes them. -/
theorem src_kept (c : Dev nD) : W2 (F := Ideal) m ρ c (Proc.devRef .tc main_v1) = Cert.ReferenceIdeal.Read.val_main_v1 (F := Ideal) (a1 m c) := by
  rw [W2_of_ne m ρ c main_v1 (by decide)]
  show StableHlo.after hostOps0 (W0 m ρ c) (Proc.devRef .tc main_v1) = _
  dsimp only [hostOps0]
  after_results_simp
  rfl

set_option maxHeartbeats 4000000 in
/-- The edges' targets, likewise. -/
theorem dst_kept (c : Dev nD) : W2 (F := Ideal) m ρ c (Proc.devRef .tc main_v3) = Cert.ReferenceIdeal.Read.val_main_v3 (F := Ideal) (a1 m c) := by
  rw [W2_of_ne m ρ c main_v3 (by decide)]
  show StableHlo.after hostOps0 (W0 m ρ c) (Proc.devRef .tc main_v3) = _
  dsimp only [hostOps0]
  after_results_simp
  rfl

set_option maxHeartbeats 4000000 in
/-- The second aggregate is the reference's chain applied to the first layer's output. -/
theorem agg_second (c : Dev nD) : V3 (F := Ideal) m ρ c main_v31 = Cert.ReferenceIdeal.Layers.agg2 (H m c) (a1 m c) := by
  show StableHlo.after hostOps1 (W2 m ρ c) (Proc.devRef .tc main_v31) = _
  dsimp only [hostOps1]
  after_results_simp
  rw [hidden_at m ρ c, src_kept m ρ c, dst_kept m ρ c]
  rfl

set_option maxHeartbeats 4000000 in
/-- The count column is still the in-degree column: the first region only read it. -/
theorem cnt_second (c : Dev nD) : V3 (F := Ideal) m ρ c main_v8 = Cert.Sage.column (Cert.ReferenceIdeal.Read.val_main_v17 (F := Ideal) (a1 m c)) := by
  show StableHlo.after hostOps1 (W2 m ρ c) (Proc.devRef .tc main_v8) = _
  dsimp only [hostOps1]
  after_results_simp
  exact ((W2_arr m ρ c 1).trans (((dat0 (V1 m ρ) c).arrAt_in 1 rfl _).trans (A_eq0 (V1 m ρ) c 1))).trans (cnt_first m ρ c)

set_option maxHeartbeats 4000000 in
/-- The second region's root features are the first layer's output. -/
theorem root_second (c : Dev nD) : V3 (F := Ideal) m ρ c main_v21 = H m c := by
  show StableHlo.after hostOps1 (W2 m ρ c) (Proc.devRef .tc main_v21) = _
  dsimp only [hostOps1]
  after_results_simp
  exact hidden_at m ρ c

set_option maxHeartbeats 4000000 in
theorem wl_second (c : Dev nD) : V3 (F := Ideal) m ρ c main_arg5 = a5 m c := by
  show StableHlo.after hostOps1 (W2 m ρ c) (Proc.devRef .tc main_arg5) = _
  dsimp only [hostOps1]
  after_results_simp
  rw [W2_of_ne m ρ c main_arg5 (by decide)]
  show StableHlo.after hostOps0 (W0 m ρ c) (Proc.devRef .tc main_arg5) = _
  dsimp only [hostOps0]
  after_results_simp

set_option maxHeartbeats 4000000 in
/-- The second bias row is the second bias held as a row. -/
theorem bias_second (c : Dev nD) : V3 (F := Ideal) m ρ c main_v10 = Cert.Sage.asRow (a6 m c) := by
  show StableHlo.after hostOps1 (W2 m ρ c) (Proc.devRef .tc main_v10) = _
  dsimp only [hostOps1]
  after_results_simp
  rw [W2_of_ne m ρ c main_v10 (by decide)]
  show StableHlo.after hostOps0 (W0 m ρ c) (Proc.devRef .tc main_v10) = _
  dsimp only [hostOps0]
  after_results_simp
  exact Cert.Sage.shapeCast_asRow _ _

set_option maxHeartbeats 4000000 in
theorem wr_second (c : Dev nD) : V3 (F := Ideal) m ρ c main_arg7 = a7 m c := by
  show StableHlo.after hostOps1 (W2 m ρ c) (Proc.devRef .tc main_arg7) = _
  dsimp only [hostOps1]
  after_results_simp
  rw [W2_of_ne m ρ c main_arg7 (by decide)]
  show StableHlo.after hostOps0 (W0 m ρ c) (Proc.devRef .tc main_arg7) = _
  dsimp only [hostOps0]
  after_results_simp

/-- The program's result on the extended reals, as a function of the arguments: the second layer over the
    aggregate of the first layer's output. -/
theorem result (c : Dev nD) : W4 (F := Ideal) m ρ c (Proc.devRef .tc main_v32)
    = Cert.Sage.output (Cert.ReferenceIdeal.Layers.agg2 (H m c) (a1 m c)) (Cert.Sage.column (Cert.ReferenceIdeal.Read.val_main_v17 (F := Ideal) (a1 m c))) (H m c)
        (a5 m c) (Cert.Sage.asRow (a6 m c)) (a7 m c) := by
  refine (W4_arr m ρ c 6).trans ((Cert.KernelIdeal.Region.array1 (V3 m ρ) c).trans ?_)
  rw [agg_second m ρ c, cnt_second m ρ c, root_second m ρ c, wl_second m ρ c, bias_second m ρ c, wr_second m ρ c]

end Cert.KernelIdeal.HostSide

end
-- ==== Proof.lean ====
/-
  Two mean-aggregation layers with a floor at zero between them, over 100000 nodes of 64 features and 1250000 edges.

  Both programs aggregate by the same host operations: the in-degree of every node is a scatter-add of ones by
  the edges' targets, and a layer's aggregate is the scatter-add by target of the gather by source of the
  layer's input. They differ in how a layer's arithmetic is carried out. The reference applies whole-array
  operations: the degree floored at one, the aggregate divided by it, two matrix products, the bias, and after
  the first layer the floor at zero. The kernel program runs each layer as a grid of ten points, each taking a
  block of ten thousand nodes through the same arithmetic with the matrix products in a narrower float format.

  On the extended reals a change of float format is the identity and a matrix product is the sum over the 64
  contracted positions of the products, so at node `r` and feature `j` both programs compute

    ( Σₖ (agg r k / max (deg r) 1) · Wl k j  +  b j )  +  Σₖ x r k · Wr k j

  with the same grouping of the two additions (`Cert.Sage.pre`). Nothing in the comparison needs an entry to be
  finite: no distributive law, no cancellation, no reordering across a sum is used, so the precondition is
  never opened.

  The proof goes in four steps. The body of each region, read at an index, is the layer over its loaded blocks
  (Proof/BodyValue). The ten blocks tile the output, so a region leaves the layer of whatever arrays it was
  entered with (Proof/RegionValue). The program's run names the contents of every buffer at each of its four
  boundaries (Proof/KernelRun), and reading them back through the host operations in the reference's own
  vocabulary gives the result as a function of the arguments (Proof/HostReads). The reference's stages, read
  at an index, are the same function (Proof/RefLayers). The gather and the scatter-add are never opened: the
  two programs apply them to equal values.
-/
import proofs.«166124_j49280454754828_2_alg».proof.Defs
import proofs.«166124_j49280454754828_2_alg».proof.Proof.Gen.Kernel
import proofs.«166124_j49280454754828_2_alg».proof.Proof.Gen.Kernel.Skeleton
import proofs.«166124_j49280454754828_2_alg».proof.Proof.Gen.Kernel.Launch
import proofs.«166124_j49280454754828_2_alg».proof.Proof.Gen.Kernel.Points
import proofs.«166124_j49280454754828_2_alg».proof.Proof.Gen.Kernel.Frame
import proofs.«166124_j49280454754828_2_alg».proof.Proof.Gen.KernelIdeal
import proofs.«166124_j49280454754828_2_alg».proof.Proof.Gen.KernelIdeal.Skeleton
import proofs.«166124_j49280454754828_2_alg».proof.Proof.Gen.KernelIdeal.Launch
import proofs.«166124_j49280454754828_2_alg».proof.Proof.Gen.KernelIdeal.Points
import proofs.«166124_j49280454754828_2_alg».proof.Proof.Gen.KernelIdeal.Frame
import proofs.«166124_j49280454754828_2_alg».proof.Proof.Gen.ReferenceIdeal
import proofs.«166124_j49280454754828_2_alg».proof.Proof.Gen.ReferenceIdeal.Run
import proofs.«166124_j49280454754828_2_alg».proof.Proof.Gen.ReferenceIdeal.Read
import proofs.«166124_j49280454754828_2_alg».proof.Proof.Gen.Pre_finite_inputs
import proofs.«166124_j49280454754828_2_alg».proof.Proof.KernelRun
import proofs.«166124_j49280454754828_2_alg».proof.Proof.HostReads
import proofs.«166124_j49280454754828_2_alg».proof.Proof.RefLayers
import Idealize.ShloMosaic.Adequacy
import Idealize.ShloMosaic.Init

noncomputable section

namespace Cert.Proof

open Idealize.ShloMosaic Idealize.SL.Sem

/-- The kernel program as printed runs, ends, and leaves its arguments as launched. -/
theorem frame_kernel : Cert.frame_Kernel := fun m ρ _ => Cert.Kernel.Gen.frame m ρ

/-- So does the same program read on the extended reals. -/
theorem frame_kernel_ideal : Cert.frame_KernelIdeal := fun m ρ _ => Cert.KernelIdeal.Gen.frame m ρ

/-- The reference is a line of host operations: its run with the result dropped. -/
theorem frame_reference : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories agreeing on the arguments both programs end with the second layer over the aggregate of the
    first layer's output: the kernel program by its run read back through its regions and host operations, the
    reference by its run read through its stages. -/
theorem algebraic : Cert.algebraic_KernelIdeal_ReferenceIdeal := by
  intro m ρ m' ρ' _ hagree
  refine ⟨_, (θ_run Cert.KernelIdeal.defs _ _).mono
    (fun r h c => ⟨(h c).1.trans (Cert.KernelIdeal.HostSide.result m ρ c), (h c).2⟩)
    (Cert.KernelIdeal.ResultRun.run_result m ρ), ?_⟩
  refine (θ_run Cert.ReferenceIdeal.defs _ _).mono (fun _ h c => ⟨(h c).1.trans ?_, (h c).2⟩)
    (Cert.ReferenceIdeal.Value.run (F := Ideal) m' ρ')
  obtain ⟨h0, h1, h2, h3, h4, h5, h6, h7⟩ := hagree c
  rw [Cert.ReferenceIdeal.Read.val_main_v54_eq, Cert.ReferenceIdeal.Layers.result, h0, h1, h2, h3, h4, h5, h6, h7]

theorem claim : Cert.Claim := ⟨Cert.Kernel.Gen.facts, Cert.KernelIdeal.Gen.facts, Cert.ReferenceIdeal.Gen.facts, Cert.Pre_finite_inputs.Gen.facts,
  frame_kernel, frame_kernel_ideal, frame_reference, preserves, algebraic⟩

end Cert.Proof

end
